-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)) →
    ∃ (v0 : (c : Dev Cert.KernelIdeal.nD) → Buf (Elt Ideal) ((c.tc : Thread Cert.KernelIdeal.nD Cert.KernelIdeal.τ).loc Cert.KernelIdeal.main_v53)) (v1 : (c : Dev Cert.KernelIdeal.nD) → Buf (Elt Ideal) ((c.tc : Thread Cert.KernelIdeal.nD Cert.KernelIdeal.τ).loc Cert.KernelIdeal.main_v55)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v53) = v0 c
          ∧ r.2.mem ((c.tc : Thread Cert.KernelIdeal.nD Cert.KernelIdeal.τ).loc Cert.KernelIdeal.main_v55) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v62) = v0 c
          ∧ r.2.mem ((c.tc : Thread Cert.ReferenceIdeal.nD Cert.ReferenceIdeal.τ).loc Cert.ReferenceIdeal.main_v64) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1x256 : Shape := ⟨2, ![1, 256]⟩
abbrev S100000x1x256 : Shape := ⟨3, ![100000, 1, 256]⟩
abbrev S256x256 : Shape := ⟨2, ![256, 256]⟩
abbrev S256 : Shape := ⟨1, ![256]⟩
abbrev S_ : Shape := ⟨0, ![]⟩

class Facts : Prop where
  bcast_S_S1x256 : S_.BroadcastsInDim S1x256 (![] : Fin 0 → Fin S1x256.rank)
  reducesTo_S1x256_S_d0_1 : S1x256.ReducesTo [0, 1] S_
  h_S_ : 0 < S_.numel
  bcast_S_S100000x1x256 : S_.BroadcastsInDim S100000x1x256 (![] : Fin 0 → Fin S100000x1x256.rank)
  reducesTo_S100000x1x256_S_d0_1_2 : S100000x1x256.ReducesTo [0, 1, 2] S_
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_

variable [Facts]

def fn_part5 {F : FTy → Type} [FloatOps F] (main_arg18 : FVec F S256x256 .f32) (main_arg19 : FVec F S256 .f32) (main_v83 : IVec S_ 1) (main_v84 : FVec F S256 .f32) (main_cst_32 : FVec F S_ .f32) : IVec S_ 1 :=
  let main_v85 : FVec F S256 .f32 := broadcastInDim S256 ![] bcast_S_S256 main_cst_32
  let main_v86 : IVec S256 1 := cmpf .olt main_v84 main_v85
  let main_c_33 : IVec S_ 1 := constantI S_ 1 1#1
  let main_v87 : IVec S_ 1 := (fun x v => Host.reduce IntOp.andi x v reducesTo_S256_S_d0 h_S_) main_v86 main_c_33
  let main_v88 : IVec S_ 1 := andi main_v83 main_v87
  let main_v89 : FVec F S256x256 .f32 := Host.absf main_arg18
  let main_cst_34 : FVec F S_ .f32 := constant S_ .f32 0x7F800000#32
  let main_v90 : FVec F S256x256 .f32 := broadcastInDim S256x256 ![] bcast_S_S256x256 main_cst_34
  let main_v91 : IVec S256x256 1 := cmpf .olt main_v89 main_v90
  let main_c_35 : IVec S_ 1 := constantI S_ 1 1#1
  let main_v92 : IVec S_ 1 := (fun x v => Host.reduce IntOp.andi x v reducesTo_S256x256_S_d0_1 h_S_) main_v91 main_c_35
  let main_v93 : IVec S_ 1 := andi main_v88 main_v92
  let main_v94 : FVec F S256 .f32 := Host.absf main_arg19
  let main_cst_36 : FVec F S_ .f32 := constant S_ .f32 0x7F800000#32
  let main_v95 : FVec F S256 .f32 := broadcastInDim S256 ![] bcast_S_S256 main_cst_36
  let main_v96 : IVec S256 1 := cmpf .olt main_v94 main_v95
  let main_c_37 : IVec S_ 1 := constantI S_ 1 1#1
  let main_v97 : IVec S_ 1 := (fun x v => Host.reduce IntOp.andi x v reducesTo_S256_S_d0 h_S_) main_v96 main_c_37
  let main_v98 : IVec S_ 1 := andi main_v93 main_v97
  main_v98

def fn_part4 {F : FTy → Type} [FloatOps F] (main_arg14 : FVec F S256x256 .f32) (main_arg15 : FVec F S256 .f32) (main_arg16 : FVec F S256x256 .f32) (main_arg17 : FVec F S256 .f32) (main_arg18 : FVec F S256x256 .f32) (main_arg19 : FVec F S256 .f32) (main_v63 : IVec S_ 1) (main_v67 : IVec S_ 1) : IVec S_ 1 :=
  let main_v68 : IVec S_ 1 := andi main_v63 main_v67
  let main_v69 : FVec F S256x256 .f32 := Host.absf main_arg14
  let main_cst_26 : FVec F S_ .f32 := constant S_ .f32 0x7F800000#32
  let main_v70 : FVec F S256x256 .f32 := broadcastInDim S256x256 ![] bcast_S_S256x256 main_cst_26
  let main_v71 : IVec S256x256 1 := cmpf .olt main_v69 main_v70
  let main_c_27 : IVec S_ 1 := constantI S_ 1 1#1
  let main_v72 : IVec S_ 1 := (fun x v => Host.reduce IntOp.andi x v reducesTo_S256x256_S_d0_1 h_S_) main_v71 main_c_27
  let main_v73 : IVec S_ 1 := andi main_v68 main_v72
  let main_v74 : FVec F S256 .f32 := Host.absf main_arg15
  let main_cst_28 : FVec F S_ .f32 := constant S_ .f32 0x7F800000#32
  let main_v75 : FVec F S256 .f32 := broadcastInDim S256 ![] bcast_S_S256 main_cst_28
  let main_v76 : IVec S256 1 := cmpf .olt main_v74 main_v75
  let main_c_29 : IVec S_ 1 := constantI S_ 1 1#1
  let main_v77 : IVec S_ 1 := (fun x v => Host.reduce IntOp.andi x v reducesTo_S256_S_d0 h_S_) main_v76 main_c_29
  let main_v78 : IVec S_ 1 := andi main_v73 main_v77
  let main_v79 : FVec F S256x256 .f32 := Host.absf main_arg16
  let main_cst_30 : FVec F S_ .f32 := constant S_ .f32 0x7F800000#32
  let main_v80 : FVec F S256x256 .f32 := broadcastInDim S256x256 ![] bcast_S_S256x256 main_cst_30
  let main_v81 : IVec S256x256 1 := cmpf .olt main_v79 main_v80
  let main_c_31 : IVec S_ 1 := constantI S_ 1 1#1
  let main_v82 : IVec S_ 1 := (fun x v => Host.reduce IntOp.andi x v reducesTo_S256x256_S_d0_1 h_S_) main_v81 main_c_31
  let main_v83 : IVec S_ 1 := andi main_v78 main_v82
  let main_v84 : FVec F S256 .f32 := Host.absf main_arg17
  let main_cst_32 : FVec F S_ .f32 := constant S_ .f32 0x7F800000#32
  fn_part5 (F := F) main_arg18 main_arg19 main_v83 main_v84 main_cst_32

def fn_part3 {F : FTy → Type} [FloatOps F] (main_arg11 : FVec F S256 .f32) (main_arg12 : FVec F S256x256 .f32) (main_arg13 : FVec F S256 .f32) (main_arg14 : FVec F S256x256 .f32) (main_arg15 : FVec F S256 .f32) (main_arg16 : FVec F S256x256 .f32) (main_arg17 : FVec F S256 .f32) (main_arg18 : FVec F S256x256 .f32) (main_arg19 : FVec F S256 .f32) (main_v48 : IVec S_ 1) (main_v49 : FVec F S256x256 .f32) (main_v50 : FVec F S256x256 .f32) : IVec S_ 1 :=
  let main_v51 : IVec S256x256 1 := cmpf .olt main_v49 main_v50
  let main_c_19 : IVec S_ 1 := constantI S_ 1 1#1
  let main_v52 : IVec S_ 1 := (fun x v => Host.reduce IntOp.andi x v reducesTo_S256x256_S_d0_1 h_S_) main_v51 main_c_19
  let main_v53 : IVec S_ 1 := andi main_v48 main_v52
  let main_v54 : FVec F S256 .f32 := Host.absf main_arg11
  let main_cst_20 : FVec F S_ .f32 := constant S_ .f32 0x7F800000#32
  let main_v55 : FVec F S256 .f32 := broadcastInDim S256 ![] bcast_S_S256 main_cst_20
  let main_v56 : IVec S256 1 := cmpf .olt main_v54 main_v55
  let main_c_21 : IVec S_ 1 := constantI S_ 1 1#1
  let main_v57 : IVec S_ 1 := (fun x v => Host.reduce IntOp.andi x v reducesTo_S256_S_d0 h_S_) main_v56 main_c_21
  let main_v58 : IVec S_ 1 := andi main_v53 main_v57
  let main_v59 : FVec F S256x256 .f32 := Host.absf main_arg12
  let main_cst_22 : FVec F S_ .f32 := constant S_ .f32 0x7F800000#32
  let main_v60 : FVec F S256x256 .f32 := broadcastInDim S256x256 ![] bcast_S_S256x256 main_cst_22
  let main_v61 : IVec S256x256 1 := cmpf .olt main_v59 main_v60
  let main_c_23 : IVec S_ 1 := constantI S_ 1 1#1
  let main_v62 : IVec S_ 1 := (fun x v => Host.reduce IntOp.andi x v reducesTo_S256x256_S_d0_1 h_S_) main_v61 main_c_23
  let main_v63 : IVec S_ 1 := andi main_v58 main_v62
  let main_v64 : FVec F S256 .f32 := Host.absf main_arg13
  let main_cst_24 : FVec F S_ .f32 := constant S_ .f32 0x7F800000#32
  let main_v65 : FVec F S256 .f32 := broadcastInDim S256 ![] bcast_S_S256 main_cst_24
  let main_v66 : IVec S256 1 := cmpf .olt main_v64 main_v65
  let main_c_25 : IVec S_ 1 := constantI S_ 1 1#1
  let main_v67 : IVec S_ 1 := (fun x v => Host.reduce IntOp.andi x v reducesTo_S256_S_d0 h_S_) main_v66 main_c_25
  fn_part4 (F := F) main_arg14 main_arg15 main_arg16 main_arg17 main_arg18 main_arg19 main_v63 main_v67

def fn_part2 {F : FTy → Type} [FloatOps F] (main_arg7 : FVec F S256 .f32) (main_arg8 : FVec F S256x256 .f32) (main_arg9 : FVec F S256 .f32) (main_arg10 : FVec F S256x256 .f32) (main_arg11 : FVec F S256 .f32) (main_arg12 : FVec F S256x256 .f32) (main_arg13 : FVec F S256 .f32) (main_arg14 : FVec F S256x256 .f32) (main_arg15 : FVec F S256 .f32) (main_arg16 : FVec F S256x256 .f32) (main_arg17 : FVec F S256 .f32) (main_arg18 : FVec F S256x256 .f32) (main_arg19 : FVec F S256 .f32) (main_v33 : IVec S_ 1) : IVec S_ 1 :=
  let main_v34 : FVec F S256 .f32 := Host.absf main_arg7
  let main_cst_12 : FVec F S_ .f32 := constant S_ .f32 0x7F800000#32
  let main_v35 : FVec F S256 .f32 := broadcastInDim S256 ![] bcast_S_S256 main_cst_12
  let main_v36 : IVec S256 1 := cmpf .olt main_v34 main_v35
  let main_c_13 : IVec S_ 1 := constantI S_ 1 1#1
  let main_v37 : IVec S_ 1 := (fun x v => Host.reduce IntOp.andi x v reducesTo_S256_S_d0 h_S_) main_v36 main_c_13
  let main_v38 : IVec S_ 1 := andi main_v33 main_v37
  let main_v39 : FVec F S256x256 .f32 := Host.absf main_arg8
  let main_cst_14 : FVec F S_ .f32 := constant S_ .f32 0x7F800000#32
  let main_v40 : FVec F S256x256 .f32 := broadcastInDim S256x256 ![] bcast_S_S256x256 main_cst_14
  let main_v41 : IVec S256x256 1 := cmpf .olt main_v39 main_v40
  let main_c_15 : IVec S_ 1 := constantI S_ 1 1#1
  let main_v42 : IVec S_ 1 := (fun x v => Host.reduce IntOp.andi x v reducesTo_S256x256_S_d0_1 h_S_) main_v41 main_c_15
  let main_v43 : IVec S_ 1 := andi main_v38 main_v42
  let main_v44 : FVec F S256 .f32 := Host.absf main_arg9
  let main_cst_16 : FVec F S_ .f32 := constant S_ .f32 0x7F800000#32
  let main_v45 : FVec F S256 .f32 := broadcastInDim S256 ![] bcast_S_S256 main_cst_16
  let main_v46 : IVec S256 1 := cmpf .olt main_v44 main_v45
  let main_c_17 : IVec S_ 1 := constantI S_ 1 1#1
  let main_v47 : IVec S_ 1 := (fun x v => Host.reduce IntOp.andi x v reducesTo_S256_S_d0 h_S_) main_v46 main_c_17
  let main_v48 : IVec S_ 1 := andi main_v43 main_v47
  let main_v49 : FVec F S256x256 .f32 := Host.absf main_arg10
  let main_cst_18 : FVec F S_ .f32 := constant S_ .f32 0x7F800000#32
  let main_v50 : FVec F S256x256 .f32 := broadcastInDim S256x256 ![] bcast_S_S256x256 main_cst_18
  fn_part3 (F := F) main_arg11 main_arg12 main_arg13 main_arg14 main_arg15 main_arg16 main_arg17 main_arg18 main_arg19 main_v48 main_v49 main_v50

def fn_part1 {F : FTy → Type} [FloatOps F] (main_arg4 : FVec F S256x256 .f32) (main_arg5 : FVec F S256 .f32) (main_arg6 : FVec F S256x256 .f32) (main_arg7 : FVec F S256 .f32) (main_arg8 : FVec F S256x256 .f32) (main_arg9 : FVec F S256 .f32) (main_arg10 : FVec F S256x256 .f32) (main_arg11 : FVec F S256 .f32) (main_arg12 : FVec F S256x256 .f32) (main_arg13 : FVec F S256 .f32) (main_arg14 : FVec F S256x256 .f32) (main_arg15 : FVec F S256 .f32) (main_arg16 : FVec F S256x256 .f32) (main_arg17 : FVec F S256 .f32) (main_arg18 : FVec F S256x256 .f32) (main_arg19 : FVec F S256 .f32) (main_v13 : IVec S_ 1) (main_v16 : IVec S1x256 1) : IVec S_ 1 :=
  let main_c_5 : IVec S_ 1 := constantI S_ 1 1#1
  let main_v17 : IVec S_ 1 := (fun x v => Host.reduce IntOp.andi x v reducesTo_S1x256_S_d0_1 h_S_) main_v16 main_c_5
  let main_v18 : IVec S_ 1 := andi main_v13 main_v17
  let main_v19 : FVec F S256x256 .f32 := Host.absf main_arg4
  let main_cst_6 : FVec F S_ .f32 := constant S_ .f32 0x7F800000#32
  let main_v20 : FVec F S256x256 .f32 := broadcastInDim S256x256 ![] bcast_S_S256x256 main_cst_6
  let main_v21 : IVec S256x256 1 := cmpf .olt main_v19 main_v20
  let main_c_7 : IVec S_ 1 := constantI S_ 1 1#1
  let main_v22 : IVec S_ 1 := (fun x v => Host.reduce IntOp.andi x v reducesTo_S256x256_S_d0_1 h_S_) main_v21 main_c_7
  let main_v23 : IVec S_ 1 := andi main_v18 main_v22
  let main_v24 : FVec F S256 .f32 := Host.absf main_arg5
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S256x256 .f32 := Host.absf main_arg6
  let main_cst_10 : FVec F S_ .f32 := constant S_ .f32 0x7F800000#32
  let main_v30 : FVec F S256x256 .f32 := broadcastInDim S256x256 ![] bcast_S_S256x256 main_cst_10
  let main_v31 : IVec S256x256 1 := cmpf .olt main_v29 main_v30
  let main_c_11 : IVec S_ 1 := constantI S_ 1 1#1
  let main_v32 : IVec S_ 1 := (fun x v => Host.reduce IntOp.andi x v reducesTo_S256x256_S_d0_1 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_arg18 main_arg19 main_v33

def fn {F : FTy → Type} [FloatOps F] (main_arg0 : FVec F S1x256 .f32) (main_arg1 : FVec F S100000x1x256 .f32) (main_arg2 : FVec F S100000x1x256 .f32) (main_arg3 : FVec F S1x256 .f32) (main_arg4 : FVec F S256x256 .f32) (main_arg5 : FVec F S256 .f32) (main_arg6 : FVec F S256x256 .f32) (main_arg7 : FVec F S256 .f32) (main_arg8 : FVec F S256x256 .f32) (main_arg9 : FVec F S256 .f32) (main_arg10 : FVec F S256x256 .f32) (main_arg11 : FVec F S256 .f32) (main_arg12 : FVec F S256x256 .f32) (main_arg13 : FVec F S256 .f32) (main_arg14 : FVec F S256x256 .f32) (main_arg15 : FVec F S256 .f32) (main_arg16 : FVec F S256x256 .f32) (main_arg17 : FVec F S256 .f32) (main_arg18 : FVec F S256x256 .f32) (main_arg19 : FVec F S256 .f32) : IVec S_ 1 :=
  let main_v0 : FVec F S1x256 .f32 := Host.absf main_arg0
  let main_cst : FVec F S_ .f32 := constant S_ .f32 0x7F800000#32
  let main_v1 : FVec F S1x256 .f32 := broadcastInDim S1x256 ![] bcast_S_S1x256 main_cst
  let main_v2 : IVec S1x256 1 := cmpf .olt main_v0 main_v1
  let main_c : IVec S_ 1 := constantI S_ 1 1#1
  let main_v3 : IVec S_ 1 := (fun x v => Host.reduce IntOp.andi x v reducesTo_S1x256_S_d0_1 h_S_) main_v2 main_c
  let main_v4 : FVec F S100000x1x256 .f32 := Host.absf main_arg1
  let main_cst_0 : FVec F S_ .f32 := constant S_ .f32 0x7F800000#32
  let main_v5 : FVec F S100000x1x256 .f32 := broadcastInDim S100000x1x256 ![] bcast_S_S100000x1x256 main_cst_0
  let main_v6 : IVec S100000x1x256 1 := cmpf .olt main_v4 main_v5
  let main_c_1 : IVec S_ 1 := constantI S_ 1 1#1
  let main_v7 : IVec S_ 1 := (fun x v => Host.reduce IntOp.andi x v reducesTo_S100000x1x256_S_d0_1_2 h_S_) main_v6 main_c_1
  let main_v8 : IVec S_ 1 := andi main_v3 main_v7
  let main_v9 : FVec F S100000x1x256 .f32 := Host.absf main_arg2
  let main_cst_2 : FVec F S_ .f32 := constant S_ .f32 0x7F800000#32
  let main_v10 : FVec F S100000x1x256 .f32 := broadcastInDim S100000x1x256 ![] bcast_S_S100000x1x256 main_cst_2
  let main_v11 : IVec S100000x1x256 1 := cmpf .olt main_v9 main_v10
  let main_c_3 : IVec S_ 1 := constantI S_ 1 1#1
  let main_v12 : IVec S_ 1 := (fun x v => Host.reduce IntOp.andi x v reducesTo_S100000x1x256_S_d0_1_2 h_S_) main_v11 main_c_3
  let main_v13 : IVec S_ 1 := andi main_v8 main_v12
  let main_v14 : FVec F S1x256 .f32 := Host.absf main_arg3
  let main_cst_4 : FVec F S_ .f32 := constant S_ .f32 0x7F800000#32
  let main_v15 : FVec F S1x256 .f32 := broadcastInDim S1x256 ![] bcast_S_S1x256 main_cst_4
  let main_v16 : IVec S1x256 1 := cmpf .olt main_v14 main_v15
  fn_part1 (F := F) main_arg4 main_arg5 main_arg6 main_arg7 main_arg8 main_arg9 main_arg10 main_arg11 main_arg12 main_arg13 main_arg14 main_arg15 main_arg16 main_arg17 main_arg18 main_arg19 main_v13 main_v16
-- ==== Kernel.lean ====
abbrev S1x256 : Shape := ⟨2, ![1, 256]⟩
abbrev S100000x1x256 : Shape := ⟨3, ![100000, 1, 256]⟩
abbrev S256x256 : Shape := ⟨2, ![256, 256]⟩
abbrev S256 : Shape := ⟨1, ![256]⟩
abbrev S_ : Shape := ⟨0, ![]⟩
abbrev S100000x256 : Shape := ⟨2, ![100000, 256]⟩
abbrev S2x1x256 : Shape := ⟨3, ![2, 1, 256]⟩
abbrev S2000x256 : Shape := ⟨2, ![2000, 256]⟩
abbrev S1x1x256 : Shape := ⟨3, ![1, 1, 256]⟩

abbrev nBuf : Space → Nat
  | .hbm => 81
  | .vmem => 9
  | .smem => 0
  | _ => 0

abbrev bufTy : (tb : Table) → Fin (tcTables nBuf tb) → BufTy
  | .hbm, ⟨0, _⟩ => ⟨S1x256, .f32⟩
  | .hbm, ⟨1, _⟩ => ⟨S100000x1x256, .f32⟩
  | .hbm, ⟨2, _⟩ => ⟨S100000x1x256, .f32⟩
  | .hbm, ⟨3, _⟩ => ⟨S1x256, .f32⟩
  | .hbm, ⟨4, _⟩ => ⟨S256x256, .f32⟩
  | .hbm, ⟨5, _⟩ => ⟨S256, .f32⟩
  | .hbm, ⟨6, _⟩ => ⟨S256x256, .f32⟩
  | .hbm, ⟨7, _⟩ => ⟨S256, .f32⟩
  | .hbm, ⟨8, _⟩ => ⟨S256x256, .f32⟩
  | .hbm, ⟨9, _⟩ => ⟨S256, .f32⟩
  | .hbm, ⟨10, _⟩ => ⟨S256x256, .f32⟩
  | .hbm, ⟨11, _⟩ => ⟨S256, .f32⟩
  | .hbm, ⟨12, _⟩ => ⟨S256x256, .f32⟩
  | .hbm, ⟨13, _⟩ => ⟨S256, .f32⟩
  | .hbm, ⟨14, _⟩ => ⟨S256x256, .f32⟩
  | .hbm, ⟨15, _⟩ => ⟨S256, .f32⟩
  | .hbm, ⟨16, _⟩ => ⟨S256x256, .f32⟩
  | .hbm, ⟨17, _⟩ => ⟨S256, .f32⟩
  | .hbm, ⟨18, _⟩ => ⟨S256x256, .f32⟩
  | .hbm, ⟨19, _⟩ => ⟨S256, .f32⟩
  | .hbm, ⟨20, _⟩ => ⟨S256x256, .f32⟩
  | .hbm, ⟨21, _⟩ => ⟨S1x256, .f32⟩
  | .hbm, ⟨22, _⟩ => ⟨S1x256, .f32⟩
  | .hbm, ⟨23, _⟩ => ⟨S1x256, .f32⟩
  | .hbm, ⟨24, _⟩ => ⟨S256x256, .f32⟩
  | .hbm, ⟨25, _⟩ => ⟨S1x256, .f32⟩
  | .hbm, ⟨26, _⟩ => ⟨S1x256, .f32⟩
  | .hbm, ⟨27, _⟩ => ⟨S1x256, .f32⟩
  | .hbm, ⟨28, _⟩ => ⟨S1x256, .f32⟩
  | .hbm, ⟨29, _⟩ => ⟨S1x256, .f32⟩
  | .hbm, ⟨30, _⟩ => ⟨S1x256, .f32⟩
  | .hbm, ⟨31, _⟩ => ⟨S_, .f32⟩
  | .hbm, ⟨32, _⟩ => ⟨S1x256, .f32⟩
  | .hbm, ⟨33, _⟩ => ⟨S1x256, .f32⟩
  | .hbm, ⟨34, _⟩ => ⟨S_, .f32⟩
  | .hbm, ⟨35, _⟩ => ⟨S1x256, .f32⟩
  | .hbm, ⟨36, _⟩ => ⟨S1x256, .f32⟩
  | .hbm, ⟨37, _⟩ => ⟨S256x256, .f32⟩
  | .hbm, ⟨38, _⟩ => ⟨S1x256, .f32⟩
  | .hbm, ⟨39, _⟩ => ⟨S1x256, .f32⟩
  | .hbm, ⟨40, _⟩ => ⟨S1x256, .f32⟩
  | .hbm, ⟨41, _⟩ => ⟨S256x256, .f32⟩
  | .hbm, ⟨42, _⟩ => ⟨S1x256, .f32⟩
  | .hbm, ⟨43, _⟩ => ⟨S1x256, .f32⟩
  | .hbm, ⟨44, _⟩ => ⟨S1x256, .f32⟩
  | .hbm, ⟨45, _⟩ => ⟨S1x256, .f32⟩
  | .hbm, ⟨46, _⟩ => ⟨S1x256, .f32⟩
  | .hbm, ⟨47, _⟩ => ⟨S1x256, .f32⟩
  | .hbm, ⟨48, _⟩ => ⟨S_, .f32⟩
  | .hbm, ⟨49, _⟩ => ⟨S1x256, .f32⟩
  | .hbm, ⟨50, _⟩ => ⟨S1x256, .f32⟩
  | .hbm, ⟨51, _⟩ => ⟨S_, .f32⟩
  | .hbm, ⟨52, _⟩ => ⟨S1x256, .f32⟩
  | .hbm, ⟨53, _⟩ => ⟨S1x256, .f32⟩
  | .hbm, ⟨54, _⟩ => ⟨S256x256, .f32⟩
  | .hbm, ⟨55, _⟩ => ⟨S1x256, .f32⟩
  | .hbm, ⟨56, _⟩ => ⟨S1x256, .f32⟩
  | .hbm, ⟨57, _⟩ => ⟨S1x256, .f32⟩
  | .hbm, ⟨58, _⟩ => ⟨S256x256, .f32⟩
  | .hbm, ⟨59, _⟩ => ⟨S1x256, .f32⟩
  | .hbm, ⟨60, _⟩ => ⟨S1x256, .f32⟩
  | .hbm, ⟨61, _⟩ => ⟨S1x256, .f32⟩
  | .hbm, ⟨62, _⟩ => ⟨S1x256, .f32⟩
  | .hbm, ⟨63, _⟩ => ⟨S1x256, .f32⟩
  | .hbm, ⟨64, _⟩ => ⟨S256x256, .f32⟩
  | .hbm, ⟨65, _⟩ => ⟨S1x256, .f32⟩
  | .hbm, ⟨66, _⟩ => ⟨S1x256, .f32⟩
  | .hbm, ⟨67, _⟩ => ⟨S1x256, .f32⟩
  | .hbm, ⟨68, _⟩ => ⟨S1x256, .f32⟩
  | .hbm, ⟨69, _⟩ => ⟨S1x256, .f32⟩
  | .hbm, ⟨70, _⟩ => ⟨S100000x256, .f32⟩
  | .hbm, ⟨71, _⟩ => ⟨S100000x256, .f32⟩
  | .hbm, ⟨72, _⟩ => ⟨S256x256, .bf16⟩
  | .hbm, ⟨73, _⟩ => ⟨S256x256, .bf16⟩
  | .hbm, ⟨74, _⟩ => ⟨S2x1x256, .f32⟩
  | .hbm, ⟨75, _⟩ => ⟨S_, .f32⟩
  | .hbm, ⟨76, _⟩ => ⟨S1x256, .f32⟩
  | .hbm, ⟨77, _⟩ => ⟨S1x256, .f32⟩
  | .hbm, ⟨78, _⟩ => ⟨S1x256, .f32⟩
  | .hbm, ⟨79, _⟩ => ⟨S1x256, .f32⟩
  | .hbm, ⟨80, _⟩ => ⟨S1x256, .f32⟩
  | .local _ .vmem, ⟨0, _⟩ => ⟨S2000x256, .f32⟩
  | .local _ .vmem, ⟨1, _⟩ => ⟨S2000x256, .f32⟩
  | .local _ .vmem, ⟨2, _⟩ => ⟨S2000x256, .f32⟩
  | .local _ .vmem, ⟨3, _⟩ => ⟨S2000x256, .f32⟩
  | .local _ .vmem, ⟨4, _⟩ => ⟨S256x256, .bf16⟩
  | .local _ .vmem, ⟨5, _⟩ => ⟨S1x256, .f32⟩
  | .local _ .vmem, ⟨6, _⟩ => ⟨S1x1x256, .f32⟩
  | .local _ .vmem, ⟨7, _⟩ => ⟨S1x1x256, .f32⟩
  | .local _ .vmem, ⟨8, _⟩ => ⟨S1x256, .f32⟩
  | _, _ => ⟨S1x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_v0 : Ref sig .tc := ⟨.hbm, 20, rfl⟩
abbrev main_v1 : Ref sig .tc := ⟨.hbm, 21, rfl⟩
abbrev main_v2 : Ref sig .tc := ⟨.hbm, 22, rfl⟩
abbrev main_v3 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_cst : Ref sig .tc := ⟨.hbm, 31, rfl⟩
abbrev main_v11 : Ref sig .tc := ⟨.hbm, 32, rfl⟩
abbrev main_v12 : Ref sig .tc := ⟨.hbm, 33, rfl⟩
abbrev main_cst_0 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_cst_1 : Ref sig .tc := ⟨.hbm, 48, rfl⟩
abbrev main_v26 : Ref sig .tc := ⟨.hbm, 49, rfl⟩
abbrev main_v27 : Ref sig .tc := ⟨.hbm, 50, rfl⟩
abbrev main_cst_2 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_cst_3 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![2, 25], ![false, false]⟩

def k0_cond2 (i : grid0.Coords) : BitVec 1 :=
  let arg1 : BitVec 32 := BitVec.ofNat 32 (i 1).val
  let c24_i32 : BitVec 32 := 24#32
  let v24 : BitVec 1 := Scalar.cmpi .eq arg1 c24_i32
  let v25 : BitVec 32 := Scalar.extui v24
  let c0_i32_13 : BitVec 32 := 0#32
  let v26 : BitVec 1 := Scalar.cmpi .ne v25 c0_i32_13
  v26

def cc0_transform_0 (i : grid0.Coords) : Fin 2 → Nat :=
  let arg0 : BitVec 32 := BitVec.ofNat 32 (i 0).val
  let arg1 : BitVec 32 := BitVec.ofNat 32 (i 1).val
  let c25_i32 : BitVec 32 := 25#32
  let v0 : BitVec 32 := Scalar.muli arg0 c25_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c25_i32 : BitVec 32 := 25#32
  let v0 : BitVec 32 := Scalar.muli arg0 c25_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2000x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S256x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x1x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  transposes_S256x256_S256x256_1_0 : S256x256.Transposes [1, 0] S256x256
  bcast_S256_S1x256_1 : S256.BroadcastsInDim S1x256 (![1] : Fin 1 → Fin S1x256.rank)
  bcast_S_S1x256 : S_.BroadcastsInDim S1x256 (![] : Fin 0 → Fin S1x256.rank)
  shapeCasts_S100000x1x256_S100000x256 : S100000x1x256.ShapeCasts S100000x256
  bitsLt_bf16_f32 : FTy.bits .bf16 < FTy.bits .f32
  inb_S1x256_S1x256_0_0 : ∀ a, (![0, 0] : Fin 2 → Nat) a + S1x256.size a ≤ S1x256.size a
  h_S1x256 : 0 < S1x256.numel
  shapeCasts_S1x256_S1x256 : S1x256.ShapeCasts S1x256
  inb_S2000x256_S2000x256_0_0 : ∀ a, (![0, 0] : Fin 2 → Nat) a + S2000x256.size a ≤ S2000x256.size a
  h_S2000x256 : 0 < S2000x256.numel
  shapeCasts_S2000x256_S2000x256 : S2000x256.ShapeCasts S2000x256
  inb_S256x256_S256x256_0_0 : ∀ a, (![0, 0] : Fin 2 → Nat) a + S256x256.size a ≤ S256x256.size a
  h_S256x256 : 0 < S256x256.numel
  shapeCasts_S256x256_S256x256 : S256x256.ShapeCasts S256x256
  broadcasts_S1x256_S2000x256 : S1x256.Broadcasts S2000x256
  reduces_S2000x256_S256 : S2000x256.Reduces [0] S256
  shapeCasts_S256_S1x256 : S256.ShapeCasts S1x256
  inb_S1x1x256_S1x1x256_0_0_0 : ∀ a, (![0, 0, 0] : Fin 3 → Nat) a + S1x1x256.size a ≤ S1x1x256.size a
  h_S1x1x256 : 0 < S1x1x256.numel
  shapeCasts_S1x1x256_S1x256 : S1x1x256.ShapeCasts S1x256
  shapeCasts_S1x256_S1x1x256 : S1x256.ShapeCasts S1x1x256
  reducesTo_S2x1x256_S1x256_d0 : S2x1x256.ReducesTo [0] S1x256
  h_S_ : 0 < S_.numel
  dot_S1x256_S256x256_S1x256_1_0_0_1_n_n_wf : DotDims.WF S1x256 S256x256 S1x256 [1] [0] [0] [1] [] []
  dot_S2000x256_S256x256_S2000x256_1_0_0_1_n_n_wf : DotDims.WF S2000x256 S256x256 S2000x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x256.size a ≤ S100000x256.size a
  hwx0_0 : ∀ i : grid0.Coords, EltTy.bits .f32 = 32 ∨ (Rect.block (s := S100000x256) S2000x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x256.size a ≤ S100000x256.size a
  hwx0_1 : ∀ i : grid0.Coords, EltTy.bits .f32 = 32 ∨ (Rect.block (s := S100000x256) S2000x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x256.size a ≤ S256x256.size a
  hwx0_2 : ∀ i : grid0.Coords, EltTy.bits .bf16 = 32 ∨ (Rect.block (s := S256x256) S256x256.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x256.size a ≤ S1x256.size a
  hwx0_3 : ∀ i : grid0.Coords, EltTy.bits .f32 = 32 ∨ (Rect.block (s := S1x256) S1x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1x256.size a ≤ S2x1x256.size a
  hwx0_4 : ∀ i : grid0.Coords, EltTy.bits .f32 = 32 ∨ (Rect.block (s := S2x1x256) S1x1x256.size (cc0_transform_4 i) (hinb0_4 i)).WholeWords (EltTy.packing .f32)

variable [Facts₀]

def dot_S1x256_S256x256_S1x256_1_0_0_1_n_n : DotDims S1x256 S256x256 S1x256 where
  lhsContracting := [1]
  rhsContracting := [0]
  lhsNonContracting := [0]
  rhsNonContracting := [1]
  lhsBatch := []
  rhsBatch := []
  wf := dot_S1x256_S256x256_S1x256_1_0_0_1_n_n_wf
def dot_S2000x256_S256x256_S2000x256_1_0_0_1_n_n : DotDims S2000x256 S256x256 S2000x256 where
  lhsContracting := [1]
  rhsContracting := [0]
  lhsNonContracting := [0]
  rhsNonContracting := [1]
  lhsBatch := []
  rhsBatch := []
  wf := dot_S2000x256_S256x256_S2000x256_1_0_0_1_n_n_wf

abbrev win0_0 : Pipeline.Window sig grid0 :=
  Pipeline.Window.ofSpec (Memref.whole main_v46) S2000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v47) S2000x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v49) S256x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v45) S1x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v50) S1x1x256.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

class Facts : Prop extends Facts₀ where

variable [Facts]
-- ==== ReferenceIdeal.lean ====
abbrev S1x256 : Shape := ⟨2, ![1, 256]⟩
abbrev S100000x1x256 : Shape := ⟨3, ![100000, 1, 256]⟩
abbrev S256x256 : Shape := ⟨2, ![256, 256]⟩
abbrev S256 : Shape := ⟨1, ![256]⟩
abbrev S_ : Shape := ⟨0, ![]⟩
abbrev S1x1x256 : Shape := ⟨3, ![1, 1, 256]⟩
abbrev S100000x256 : Shape := ⟨2, ![100000, 256]⟩

abbrev nBuf : Space → Nat
  | .hbm => 92
  | .vmem => 0
  | .smem => 0
  | _ => 0

abbrev bufTy : (tb : Table) → Fin (tcTables nBuf tb) → BufTy
  | .hbm, ⟨0, _⟩ => ⟨S1x256, .f32⟩
  | .hbm, ⟨1, _⟩ => ⟨S100000x1x256, .f32⟩
  | .hbm, ⟨2, _⟩ => ⟨S100000x1x256, .f32⟩
  | .hbm, ⟨3, _⟩ => ⟨S1x256, .f32⟩
  | .hbm, ⟨4, _⟩ => ⟨S256x256, .f32⟩
  | .hbm, ⟨5, _⟩ => ⟨S256, .f32⟩
  | .hbm, ⟨6, _⟩ => ⟨S256x256, .f32⟩
  | .hbm, ⟨7, _⟩ => ⟨S256, .f32⟩
  | .hbm, ⟨8, _⟩ => ⟨S256x256, .f32⟩
  | .hbm, ⟨9, _⟩ => ⟨S256, .f32⟩
  | .hbm, ⟨10, _⟩ => ⟨S256x256, .f32⟩
  | .hbm, ⟨11, _⟩ => ⟨S256, .f32⟩
  | .hbm, ⟨12, _⟩ => ⟨S256x256, .f32⟩
  | .hbm, ⟨13, _⟩ => ⟨S256, .f32⟩
  | .hbm, ⟨14, _⟩ => ⟨S256x256, .f32⟩
  | .hbm, ⟨15, _⟩ => ⟨S256, .f32⟩
  | .hbm, ⟨16, _⟩ => ⟨S256x256, .f32⟩
  | .hbm, ⟨17, _⟩ => ⟨S256, .f32⟩
  | .hbm, ⟨18, _⟩ => ⟨S256x256, .f32⟩
  | .hbm, ⟨19, _⟩ => ⟨S256, .f32⟩
  | .hbm, ⟨20, _⟩ => ⟨S256x256, .f32⟩
  | .hbm, ⟨21, _⟩ => ⟨S1x256, .f32⟩
  | .hbm, ⟨22, _⟩ => ⟨S1x256, .f32⟩
  | .hbm, ⟨23, _⟩ => ⟨S1x256, .f32⟩
  | .hbm, ⟨24, _⟩ => ⟨S256x256, .f32⟩
  | .hbm, ⟨25, _⟩ => ⟨S1x256, .f32⟩
  | .hbm, ⟨26, _⟩ => ⟨S1x256, .f32⟩
  | .hbm, ⟨27, _⟩ => ⟨S1x256, .f32⟩
  | .hbm, ⟨28, _⟩ => ⟨S1x256, .f32⟩
  | .hbm, ⟨29, _⟩ => ⟨S1x256, .f32⟩
  | .hbm, ⟨30, _⟩ => ⟨S1x256, .f32⟩
  | .hbm, ⟨31, _⟩ => ⟨S_, .f32⟩
  | .hbm, ⟨32, _⟩ => ⟨S1x256, .f32⟩
  | .hbm, ⟨33, _⟩ => ⟨S1x256, .f32⟩
  | .hbm, ⟨34, _⟩ => ⟨S_, .f32⟩
  | .hbm, ⟨35, _⟩ => ⟨S1x256, .f32⟩
  | .hbm, ⟨36, _⟩ => ⟨S1x256, .f32⟩
  | .hbm, ⟨37, _⟩ => ⟨S256x256, .f32⟩
  | .hbm, ⟨38, _⟩ => ⟨S1x256, .f32⟩
  | .hbm, ⟨39, _⟩ => ⟨S1x256, .f32⟩
  | .hbm, ⟨40, _⟩ => ⟨S1x256, .f32⟩
  | .hbm, ⟨41, _⟩ => ⟨S256x256, .f32⟩
  | .hbm, ⟨42, _⟩ => ⟨S1x256, .f32⟩
  | .hbm, ⟨43, _⟩ => ⟨S1x256, .f32⟩
  | .hbm, ⟨44, _⟩ => ⟨S1x256, .f32⟩
  | .hbm, ⟨45, _⟩ => ⟨S1x256, .f32⟩
  | .hbm, ⟨46, _⟩ => ⟨S1x256, .f32⟩
  | .hbm, ⟨47, _⟩ => ⟨S1x256, .f32⟩
  | .hbm, ⟨48, _⟩ => ⟨S_, .f32⟩
  | .hbm, ⟨49, _⟩ => ⟨S1x256, .f32⟩
  | .hbm, ⟨50, _⟩ => ⟨S1x256, .f32⟩
  | .hbm, ⟨51, _⟩ => ⟨S_, .f32⟩
  | .hbm, ⟨52, _⟩ => ⟨S1x256, .f32⟩
  | .hbm, ⟨53, _⟩ => ⟨S1x256, .f32⟩
  | .hbm, ⟨54, _⟩ => ⟨S256x256, .f32⟩
  | .hbm, ⟨55, _⟩ => ⟨S1x256, .f32⟩
  | .hbm, ⟨56, _⟩ => ⟨S1x256, .f32⟩
  | .hbm, ⟨57, _⟩ => ⟨S1x256, .f32⟩
  | .hbm, ⟨58, _⟩ => ⟨S256x256, .f32⟩
  | .hbm, ⟨59, _⟩ => ⟨S1x256, .f32⟩
  | .hbm, ⟨60, _⟩ => ⟨S1x256, .f32⟩
  | .hbm, ⟨61, _⟩ => ⟨S1x256, .f32⟩
  | .hbm, ⟨62, _⟩ => ⟨S1x256, .f32⟩
  | .hbm, ⟨63, _⟩ => ⟨S1x256, .f32⟩
  | .hbm, ⟨64, _⟩ => ⟨S256x256, .f32⟩
  | .hbm, ⟨65, _⟩ => ⟨S1x256, .f32⟩
  | .hbm, ⟨66, _⟩ => ⟨S1x256, .f32⟩
  | .hbm, ⟨67, _⟩ => ⟨S1x256, .f32⟩
  | .hbm, ⟨68, _⟩ => ⟨S1x1x256, .f32⟩
  | .hbm, ⟨69, _⟩ => ⟨S100000x1x256, .f32⟩
  | .hbm, ⟨70, _⟩ => ⟨S1x1x256, .f32⟩
  | .hbm, ⟨71, _⟩ => ⟨S100000x1x256, .f32⟩
  | .hbm, ⟨72, _⟩ => ⟨S100000x1x256, .f32⟩
  | .hbm, ⟨73, _⟩ => ⟨S100000x1x256, .f32⟩
  | .hbm, ⟨74, _⟩ => ⟨S100000x1x256, .f32⟩
  | .hbm, ⟨75, _⟩ => ⟨S100000x1x256, .f32⟩
  | .hbm, ⟨76, _⟩ => ⟨S100000x1x256, .f32⟩
  | .hbm, ⟨77, _⟩ => ⟨S_, .f32⟩
  | .hbm, ⟨78, _⟩ => ⟨S100000x1x256, .f32⟩
  | .hbm, ⟨79, _⟩ => ⟨S100000x1x256, .f32⟩
  | .hbm, ⟨80, _⟩ => ⟨S_, .f32⟩
  | .hbm, ⟨81, _⟩ => ⟨S100000x1x256, .f32⟩
  | .hbm, ⟨82, _⟩ => ⟨S100000x1x256, .f32⟩
  | .hbm, ⟨83, _⟩ => ⟨S100000x1x256, .f32⟩
  | .hbm, ⟨84, _⟩ => ⟨S100000x256, .f32⟩
  | .hbm, ⟨85, _⟩ => ⟨S1x256, .f32⟩
  | .hbm, ⟨86, _⟩ => ⟨S_, .f32⟩
  | .hbm, ⟨87, _⟩ => ⟨S256, .f32⟩
  | .hbm, ⟨88, _⟩ => ⟨S1x256, .f32⟩
  | .hbm, ⟨89, _⟩ => ⟨S1x256, .f32⟩
  | .hbm, ⟨90, _⟩ => ⟨S1x256, .f32⟩
  | .hbm, ⟨91, _⟩ => ⟨S1x256, .f32⟩
  | _, _ => ⟨S1x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_v0 : Ref sig .tc := ⟨.hbm, 20, rfl⟩
abbrev main_v1 : Ref sig .tc := ⟨.hbm, 21, rfl⟩
abbrev main_v2 : Ref sig .tc := ⟨.hbm, 22, rfl⟩
abbrev main_v3 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_cst : Ref sig .tc := ⟨.hbm, 31, rfl⟩
abbrev main_v11 : Ref sig .tc := ⟨.hbm, 32, rfl⟩
abbrev main_v12 : Ref sig .tc := ⟨.hbm, 33, rfl⟩
abbrev main_cst_0 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_cst_1 : Ref sig .tc := ⟨.hbm, 48, rfl⟩
abbrev main_v26 : Ref sig .tc := ⟨.hbm, 49, rfl⟩
abbrev main_v27 : Ref sig .tc := ⟨.hbm, 50, rfl⟩
abbrev main_cst_2 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_cst_3 : Ref sig .tc := ⟨.hbm, 77, rfl⟩
abbrev main_v53 : Ref sig .tc := ⟨.hbm, 78, rfl⟩
abbrev main_v54 : Ref sig .tc := ⟨.hbm, 79, rfl⟩
abbrev main_cst_4 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_cst_5 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩

abbrev nD : Nat := 1
abbrev τ : Topo := Topo.v7x

variable {F : FTy → Type} [FloatOps F]

class Facts₀ : Prop where
  transposes_S256x256_S256x256_1_0 : S256x256.Transposes [1, 0] S256x256
  bcast_S256_S1x256_1 : S256.BroadcastsInDim S1x256 (![1] : Fin 1 → Fin S1x256.rank)
  bcast_S_S1x256 : S_.BroadcastsInDim S1x256 (![] : Fin 0 → Fin S1x256.rank)
  bcast_S1x256_S1x1x256_0_2 : S1x256.BroadcastsInDim S1x1x256 (![0, 2] : Fin 2 → Fin S1x1x256.rank)
  bcast_S256_S1x1x256_2 : S256.BroadcastsInDim S1x1x256 (![2] : Fin 1 → Fin S1x1x256.rank)
  bcast_S1x1x256_S100000x1x256_0_1_2 : S1x1x256.BroadcastsInDim S100000x1x256 (![0, 1, 2] : Fin 3 → Fin S100000x1x256.rank)
  bcast_S_S100000x1x256 : S_.BroadcastsInDim S100000x1x256 (![] : Fin 0 → Fin S100000x1x256.rank)
  shapeCasts_S100000x1x256_S100000x256 : S100000x1x256.ShapeCasts S100000x256
  reducesTo_S100000x256_S256_d0 : S100000x256.ReducesTo [0] S256
  h_S_ : 0 < S_.numel
  dot_S1x256_S256x256_S1x256_1_0_0_1_n_n_wf : DotDims.WF S1x256 S256x256 S1x256 [1] [0] [0] [1] [] []
  dot_S100000x1x256_S256x256_S100000x1x256_2_1_01_0_n_n_wf : DotDims.WF S100000x1x256 S256x256 S100000x1x256 [2] [1] [0, 1] [0] [] []

variable [Facts₀]

def dot_S1x256_S256x256_S1x256_1_0_0_1_n_n : DotDims S1x256 S256x256 S1x256 where
  lhsContracting := [1]
  rhsContracting := [0]
  lhsNonContracting := [0]
  rhsNonContracting := [1]
  lhsBatch := []
  rhsBatch := []
  wf := dot_S1x256_S256x256_S1x256_1_0_0_1_n_n_wf
def dot_S100000x1x256_S256x256_S100000x1x256_2_1_01_0_n_n : DotDims S100000x1x256 S256x256 S100000x1x256 where
  lhsContracting := [2]
  rhsContracting := [1]
  lhsNonContracting := [0, 1]
  rhsNonContracting := [0]
  lhsBatch := []
  rhsBatch := []
  wf := dot_S100000x1x256_S256x256_S100000x1x256_2_1_01_0_n_n_wf

class Facts : Prop extends Facts₀ where

variable [Facts]
-- ==== Proof.BodyPieces.lean ====
import proofs.«135449_j25305947308889_2_alg».proof.Defs
import proofs.«135449_j25305947308889_2_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

set_option maxRecDepth 16384

noncomputable section

open Idealize.ShloMosaic Idealize.ShloMosaic.TcCoe Idealize.SL.Sem
open Idealize.ShloMosaic.Pipeline (Dat)
open Idealize.ShloMosaic.ValueIdx

/-! ## What one grid point leaves behind

At every point the body adds, to the row it carries between points, the tile's column sums of `σ(h · W + bias) * c`
(`k0_pay2`). At the first point of a run it first stores a zero row and adds to that; at the last point of a run it also
copies the carried row into the output block (`k0_pay3`, a change of shape only). Here each case's stores are read back
as those payloads of the blocks the point was handed. -/

namespace Cert.KernelIdeal.BodyValue

open Cert.KernelIdeal Cert.KernelIdeal.Gen

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- A middle point of a run: the carried row `xs0` plus the tile's column sums. -/
theorem scratch_B (c : Dev nD) (i : grid0.Coords) (a2 : Memref sig .tc .vmem S2000x256 .f32) (h2 : a2.IsWhole) (a3 : Memref sig .tc .vmem S2000x256 .f32) (h3 : a3.IsWhole)
    (a4 : Memref sig .tc .vmem S256x256 .bf16) (h4 : a4.IsWhole) (a5 : Memref sig .tc .vmem S1x256 .f32) (h5 : a5.IsWhole)
    (a6 : Memref sig .tc .vmem S1x1x256 .f32) (h6 : a6.IsWhole) (a7 : Memref sig .tc .vmem S1x256 .f32) (h7 : a7.IsWhole)
    (hc0 : ¬cond0_0 i) (hc1 : ¬cond0_1 i)
    (x0 x1 : Vec F S2000x256 .f32) (x2 : Vec F S256x256 .bf16) (x3 xs0 : Vec F S1x256 .f32) :
    sout0_B_0 c i a2 h2 a3 h3 a4 h4 a5 h5 a6 h6 a7 h7 hc0 hc1 x0 x1 x2 x3 xs0 = k0_pay2 x0 x2 x3 x1 xs0 := by
  unfold sout0_B_0
  rw [View.read_writes_eq_canon _ _ _ (scover0_B_0 c i a2 h2 a3 h3 a4 h4 a5 h5 a6 h6 a7 h7 hc0 hc1 x0 x1 x2 x3 xs0)]
  unfold kernelRun0_B
  dsimp only
  rw [View.canon_unit_zero hz2]
  simp only [View.readAt_eq_ld, h2.read_unread, h3.read_unread, h4.read_unread, h5.read_unread, h7.read_unread,
    View.ld_unit_zero (S := S2000x256) hz2, View.ld_unit_zero (S := S256x256) hz2, View.ld_unit_zero (S := S1x256) hz2]

/-- The last point of a run carries on the same row as a middle point does. -/
theorem scratch_C (c : Dev nD) (i : grid0.Coords) (a2 : Memref sig .tc .vmem S2000x256 .f32) (h2 : a2.IsWhole) (a3 : Memref sig .tc .vmem S2000x256 .f32) (h3 : a3.IsWhole)
    (a4 : Memref sig .tc .vmem S256x256 .bf16) (h4 : a4.IsWhole) (a5 : Memref sig .tc .vmem S1x256 .f32) (h5 : a5.IsWhole)
    (a6 : Memref sig .tc .vmem S1x1x256 .f32) (h6 : a6.IsWhole) (a7 : Memref sig .tc .vmem S1x256 .f32) (h7 : a7.IsWhole)
    (hc0 : ¬cond0_0 i) (hc1 : cond0_1 i)
    (x0 x1 : Vec F S2000x256 .f32) (x2 : Vec F S256x256 .bf16) (x3 xs0 : Vec F S1x256 .f32) :
    sout0_C_0 c i a2 h2 a3 h3 a4 h4 a5 h5 a6 h6 a7 h7 hc0 hc1 x0 x1 x2 x3 xs0 = k0_pay2 x0 x2 x3 x1 xs0 := by
  unfold sout0_C_0
  rw [View.read_writes_eq_canon _ _ _ (scover0_C_0 c i a2 h2 a3 h3 a4 h4 a5 h5 a6 h6 a7 h7 hc0 hc1 x0 x1 x2 x3 xs0)]
  unfold kernelRun0_C
  dsimp only
  sl_unfold_words
  rw [View.canon_unit_zero hz2]
  simp only [View.readAt_eq_ld, h2.read_unread, h3.read_unread, h4.read_unread, h5.read_unread, h7.read_unread,
    View.ld_unit_zero (S := S2000x256) hz2, View.ld_unit_zero (S := S256x256) hz2, View.ld_unit_zero (S := S1x256) hz2]

/-- The last point of a run stores, into the output block, the row it has just accumulated, with a unit axis added. -/
theorem out_C (c : Dev nD) (i : grid0.Coords) (a2 : Memref sig .tc .vmem S2000x256 .f32) (h2 : a2.IsWhole) (a3 : Memref sig .tc .vmem S2000x256 .f32) (h3 : a3.IsWhole)
    (a4 : Memref sig .tc .vmem S256x256 .bf16) (h4 : a4.IsWhole) (a5 : Memref sig .tc .vmem S1x256 .f32) (h5 : a5.IsWhole)
    (a6 : Memref sig .tc .vmem S1x1x256 .f32) (h6 : a6.IsWhole) (a7 : Memref sig .tc .vmem S1x256 .f32) (h7 : a7.IsWhole)
    (hc0 : ¬cond0_0 i) (hc1 : cond0_1 i)
    (x0 x1 : Vec F S2000x256 .f32) (x2 : Vec F S256x256 .bf16) (x3 xs0 : Vec F S1x256 .f32) :
    out0_C_4 c i a2 h2 a3 h3 a4 h4 a5 h5 a6 h6 a7 h7 hc0 hc1 x0 x1 x2 x3 xs0 = k0_pay3 (k0_pay2 x0 x2 x3 x1 xs0) := by
  unfold out0_C_4
  rw [View.read_writes_eq_canon _ _ _ (cover0_C_4 c i a2 h2 a3 h3 a4 h4 a5 h5 a6 h6 a7 h7 hc0 hc1 x0 x1 x2 x3 xs0)]
  unfold kernelRun0_C
  dsimp only
  sl_unfold_words
  rw [View.canon_unit_zero hz3, View.readCov_unit_zero (S := S1x256) _ hz2]
  simp only [View.readAt_eq_ld, h2.read_unread, h3.read_unread, h4.read_unread, h5.read_unread, h7.read_unread,
    View.ld_unit_zero (S := S2000x256) hz2, View.ld_unit_zero (S := S256x256) hz2, View.ld_unit_zero (S := S1x256) hz2]

/-- The first point of a run: the zero row plus the tile's column sums. -/
theorem scratch_A (c : Dev nD) (i : grid0.Coords) (a2 : Memref sig .tc .vmem S2000x256 .f32) (h2 : a2.IsWhole) (a3 : Memref sig .tc .vmem S2000x256 .f32) (h3 : a3.IsWhole)
    (a4 : Memref sig .tc .vmem S256x256 .bf16) (h4 : a4.IsWhole) (a5 : Memref sig .tc .vmem S1x256 .f32) (h5 : a5.IsWhole)
    (a6 : Memref sig .tc .vmem S1x1x256 .f32) (h6 : a6.IsWhole) (a7 : Memref sig .tc .vmem S1x256 .f32) (h7 : a7.IsWhole)
    (hc0 : cond0_0 i) (hc1 : ¬cond0_1 i)
    (x0 x1 : Vec F S2000x256 .f32) (x2 : Vec F S256x256 .bf16) (x3 : Vec F S1x256 .f32) :
    sout0_A_0 c i a2 h2 a3 h3 a4 h4 a5 h5 a6 h6 a7 h7 hc0 hc1 x0 x1 x2 x3 = k0_pay2 x0 x2 x3 x1 (k0_pay1 (F := F)) := by
  unfold sout0_A_0
  rw [View.read_writes_eq_canon _ _ _ (scover0_A_0 c i a2 h2 a3 h3 a4 h4 a5 h5 a6 h6 a7 h7 hc0 hc1 x0 x1 x2 x3)]
  unfold kernelRun0_A
  dsimp only
  sl_unfold_words
  rw [View.canon_cons_unit_zero (S := S1x256) hz2, View.readCov_unit_zero (S := S1x256) _ hz2]
  simp only [View.readAt_eq_ld, h2.read_unread, h3.read_unread, h4.read_unread, h5.read_unread, h7.read_unread,
    View.ld_unit_zero (S := S2000x256) hz2, View.ld_unit_zero (S := S256x256) hz2, View.ld_unit_zero (S := S1x256) hz2]

end Cert.KernelIdeal.BodyValue

end
-- ==== Proof.PayloadAt.lean ====
import proofs.«135449_j25305947308889_2_alg».proof.Defs
import proofs.«135449_j25305947308889_2_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic
import proofs.«135449_j25305947308889_2_alg».proof.Proof.BodyPieces
set_option maxRecDepth 16384

noncomputable section

open Idealize.ShloMosaic Idealize.ShloMosaic.TcCoe Idealize.SL.Sem
open Idealize.ShloMosaic.Pipeline (Dat)
open Idealize.ShloMosaic.ValueIdx

/-! ## The payloads read at an index, over the extended reals

The zero row is zero; adding a unit axis moves no entry; and the accumulate payload at column `k` is the carried entry plus
the sum, over the tile's 2000 rows `r`, of `σ((∑ m, H[r,m] * W[m,k]) + b[0,k]) * C[r,k]`: the narrowing of `H` to a shorter
float format is the identity here, the matrix product into a zero accumulator is the plain sum of products, the bias row is
spread over the rows, and the reduction over the row axis is the sum over the rows. -/

namespace Cert.KernelIdeal.BodyValue

open Cert.KernelIdeal Cert.KernelIdeal.Gen

/-- The zero row. -/
theorem pay1_apply (j : S1x256.Idx) : k0_pay1 (F := Ideal) j = 0 := by
  unfold k0_pay1
  rw [shapeCast_self]
  exact Ideal.ofBits_zero_f32

/-- A row with a unit axis added holds the same entries. -/
theorem pay3_apply (v : FVec Ideal S1x256 .f32) (k : Fin 256) : k0_pay3 (F := Ideal) v (ix3 0 0 k) = v (ix2 0 k) := by
  unfold k0_pay3
  exact shapeCast_apply v shapeCasts_S1x256_S1x1x256 (ix3 0 0 k) (ix2 0 k) (by
    rewrite [Shape.rowMajor_val_two, Shape.rowMajor_val_three]; rfl)

/-- Column `k` with row `r` put back is `(r, k)`. -/
theorem lift_col (h : S2000x256.Reduces [0] S256) (k : Fin 256) (r : Fin (S2000x256.size 0)) :
    h.lift (ix1 k) r = ix2 (⟨r.val, r.isLt⟩ : Fin 2000) k := by
  funext c; apply Fin.ext
  fin_cases c <;> rfl

/-- The reduction over the row axis, at column `k`, is the sum over the rows. -/
theorem colSum (v : FVec Ideal S2000x256 .f32) (h : S2000x256.Reduces [0] S256) (hφ : FKind.Formats .f32)
    (hacc : (0x00000000#32 : BitVec 32) = FKind.add.neutral .f32 hφ) (k : Fin 256) :
    multiReduction .add [0] S256 v 0x00000000#32 h hφ hacc (ix1 k) = ∑ r : Fin 2000, v (ix2 r k) :=
  (Ideal.multiReduction_add_single v 0x00000000#32 h hφ hacc (ix1 k)).trans
    (Finset.sum_congr rfl fun r _ => congrArg v (lift_col h k r))

theorem lhs_row (i : S2000x256.Idx) (q : dot_S2000x256_S256x256_S2000x256_1_0_0_1_n_n.contr.Idx) : (dot_S2000x256_S256x256_S2000x256_1_0_0_1_n_n.lhsIdx i q 0).val = (i 0).val := by
  unfold DotDims.lhsIdx
  rw [dif_neg (show ¬(0 : Fin S2000x256.rank) ∈ dot_S2000x256_S256x256_S2000x256_1_0_0_1_n_n.lhsBatch by decide), dif_pos (show (0 : Fin S2000x256.rank) ∈ dot_S2000x256_S256x256_S2000x256_1_0_0_1_n_n.lhsNonContracting by decide)]
  rfl
theorem lhs_contr (i : S2000x256.Idx) (q : dot_S2000x256_S256x256_S2000x256_1_0_0_1_n_n.contr.Idx) : (dot_S2000x256_S256x256_S2000x256_1_0_0_1_n_n.lhsIdx i q 1).val = (q ⟨0, by decide⟩).val :=
  dot_S2000x256_S256x256_S2000x256_1_0_0_1_n_n.lhsIdx_val_of_single rfl i q
theorem rhs_contr (i : S2000x256.Idx) (q : dot_S2000x256_S256x256_S2000x256_1_0_0_1_n_n.contr.Idx) : (dot_S2000x256_S256x256_S2000x256_1_0_0_1_n_n.rhsIdx i q 0).val = (q ⟨0, by decide⟩).val :=
  dot_S2000x256_S256x256_S2000x256_1_0_0_1_n_n.rhsIdx_val_of_single rfl i q
theorem rhs_col (i : S2000x256.Idx) (q : dot_S2000x256_S256x256_S2000x256_1_0_0_1_n_n.contr.Idx) : (dot_S2000x256_S256x256_S2000x256_1_0_0_1_n_n.rhsIdx i q 1).val = (i 1).val := by
  unfold DotDims.rhsIdx
  rw [dif_neg (show ¬(1 : Fin S256x256.rank) ∈ dot_S2000x256_S256x256_S2000x256_1_0_0_1_n_n.rhsBatch by decide), dif_pos (show (1 : Fin S256x256.rank) ∈ dot_S2000x256_S256x256_S2000x256_1_0_0_1_n_n.rhsNonContracting by decide)]
  rfl

/-- The matrix product into a zero accumulator, at `(r, k)`, is the sum over the contracted axis of the products. -/
theorem mm_apply (h : FVec Ideal S2000x256 .bf16) (w : FVec Ideal S256x256 .bf16) (r : Fin 2000) (k : Fin 256) :
    FloatOps.matmul dot_S2000x256_S256x256_S2000x256_1_0_0_1_n_n none h w (constant S2000x256 .f32 0x00000000#32) (ix2 r k) = ∑ m : Fin 256, h (ix2 r m) * w (ix2 m k) := by
  rw [Ideal.matmul_constant_zero_apply, ← Equiv.sum_comp (contrEquiv1 dot_S2000x256_S256x256_S2000x256_1_0_0_1_n_n 256 rfl rfl).symm]
  refine Finset.sum_congr rfl fun m _ => ?_
  have hk := contrEquiv1_symm_val dot_S2000x256_S256x256_S2000x256_1_0_0_1_n_n 256 rfl rfl m
  have el : dot_S2000x256_S256x256_S2000x256_1_0_0_1_n_n.lhsIdx (ix2 r k) ((contrEquiv1 dot_S2000x256_S256x256_S2000x256_1_0_0_1_n_n 256 rfl rfl).symm m) = ix2 r m := funext fun a => Fin.ext (by
    match a with
    | ⟨0, _⟩ => exact lhs_row _ _
    | ⟨1, _⟩ => exact (lhs_contr _ _).trans hk)
  have er : dot_S2000x256_S256x256_S2000x256_1_0_0_1_n_n.rhsIdx (ix2 r k) ((contrEquiv1 dot_S2000x256_S256x256_S2000x256_1_0_0_1_n_n 256 rfl rfl).symm m) = ix2 m k := funext fun a => Fin.ext (by
    match a with
    | ⟨0, _⟩ => exact (rhs_contr _ _).trans hk
    | ⟨1, _⟩ => exact rhs_col _ _)
  rw [el, er]

/-- The bias row spread over the tile's rows reads the row's entry of the same column. -/
theorem bias_apply (b : FVec Ideal S1x256 .f32) (r : Fin 2000) (k : Fin 256) :
    broadcastTo S2000x256 b broadcasts_S1x256_S2000x256 (ix2 r k) = b (ix2 0 k) :=
  broadcastTo_apply b broadcasts_S1x256_S2000x256 (ix2 r k) (ix2 0 k) (fun a => match a with
    | ⟨0, _⟩ => by show 0 = if (1 : Nat) = 1 then 0 else _; rw [if_pos rfl]
    | ⟨1, _⟩ => by show k.val = if (256 : Nat) = 1 then 0 else k.val; rw [if_neg (by decide)])

/-- What one tile adds to column `k`: the sum over its rows of the gate times the cell entry. -/
def tileTermOf (H C : FVec Ideal S2000x256 .f32) (W : FVec Ideal S256x256 .bf16) (b : FVec Ideal S1x256 .f32) (k : Fin 256) : EReal :=
  ∑ r : Fin 2000, Ideal.logistic ((∑ q : Fin 256, H (ix2 r q) * W (ix2 q k)) + b (ix2 0 k)) * C (ix2 r k)

/-- The accumulate payload at column `k`: the carried entry plus the tile's term. -/
theorem pay2_apply (H C : FVec Ideal S2000x256 .f32) (W : FVec Ideal S256x256 .bf16) (b acc : FVec Ideal S1x256 .f32) (k : Fin 256) :
    k0_pay2 (F := Ideal) H W b C acc (ix2 0 k) = acc (ix2 0 k) + tileTermOf H C W b k := by
  unfold k0_pay2 tileTermOf
  simp only [shapeCast_self]
  refine (addf_apply _ _ _).trans (congrArg (acc (ix2 0 k) + ·) ?_)
  refine (shapeCast_apply _ shapeCasts_S256_S1x256 (ix2 0 k) (ix1 k) (by
    rewrite [Shape.rowMajor_val_one, Shape.rowMajor_val_two]; show k.val = (0 : ℕ) * 256 + k.val; omega)).trans ?_
  refine (colSum _ reduces_S2000x256_S256 _ _ k).trans (Finset.sum_congr rfl fun r _ => ?_)
  refine (mulf_apply _ _ _).trans (congrArg (· * C (ix2 r k)) ?_)
  refine congrArg Ideal.logistic ((addf_apply _ _ _).trans ?_)
  exact congrArg₂ (· + ·) (mm_apply _ W r k) (bias_apply b r k)

end Cert.KernelIdeal.BodyValue

end
-- ==== Proof.Accumulate.lean ====
import proofs.«135449_j25305947308889_2_alg».proof.Defs
import proofs.«135449_j25305947308889_2_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic
import proofs.«135449_j25305947308889_2_alg».proof.Proof.BodyPieces
import proofs.«135449_j25305947308889_2_alg».proof.Proof.PayloadAt
set_option maxRecDepth 16384

noncomputable section

open Idealize.ShloMosaic Idealize.ShloMosaic.TcCoe Idealize.SL.Sem
open Idealize.ShloMosaic.Pipeline (Dat)
open Idealize.ShloMosaic.ValueIdx

/-! ## A run of 25 grid points accumulates its tiles

Each core's run starts from a zero row and adds one tile's column sums per point; nothing else touches the carried row between
points. So after the point `25 p + i` the carried row holds, at column `k`, the sum of the terms of tiles `25 p … 25 p + i`, and the
run's last point stores that row, with a unit axis added, in the output block. -/

namespace Cert.KernelIdeal.Accumulate

open Cert.KernelIdeal Cert.KernelIdeal.Gen Cert.KernelIdeal.BodyValue

variable (m : (ℓ : Loc nD τ sig) → Buf (Elt Ideal) ℓ) (c : Dev nD)

/-- The carried row after a run's first point: the zero row plus the tile's column sums. -/
theorem carried_A (t : Fin cfg0.N) (h0 : t.val % 25 = 0) (h1 : ¬t.val % 25 = 24) :
    (outsAt0 m c t.val t.isLt).2 = k0_pay2 (F := Ideal) (iblk m c 0 t) (iblk m c 2 t) (iblk m c 3 t) (iblk m c 1 t) (k0_pay1 (F := Ideal)) := by
  rw [outsAt0_A m c t h0 h1]
  exact scratch_A (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) ((hcond0_0 t).mpr h0) (fun h => h1 ((hcond0_1 t).mp h)) (iblk m c 0 t) (iblk m c 1 t) (iblk m c 2 t) (iblk m c 3 t)

/-- The carried row after a middle point: what the point before left plus the tile's column sums. -/
theorem carried_B (t : Fin cfg0.N) (h0 : ¬t.val % 25 = 0) (h1 : ¬t.val % 25 = 24) :
    (outsAt0 m c t.val t.isLt).2 = k0_pay2 (F := Ideal) (iblk m c 0 t) (iblk m c 2 t) (iblk m c 3 t) (iblk m c 1 t) (outsAt0 m c (t.val - 1) (Nat.lt_of_le_of_lt (Nat.sub_le _ _) t.isLt)).2 := by
  rw [outsAt0_B m c t h0 h1]
  exact scratch_B (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).2

/-- The carried row after a run's last point: the same. -/
theorem carried_C (t : Fin cfg0.N) (h0 : ¬t.val % 25 = 0) (h1 : t.val % 25 = 24) :
    (outsAt0 m c t.val t.isLt).2 = k0_pay2 (F := Ideal) (iblk m c 0 t) (iblk m c 2 t) (iblk m c 3 t) (iblk m c 1 t) (outsAt0 m c (t.val - 1) (Nat.lt_of_le_of_lt (Nat.sub_le _ _) t.isLt)).2 := by
  rw [outsAt0_C m c t h0 h1]
  exact scratch_C (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2

set_option maxHeartbeats 1000000 in
/-- The output block after a run's last point: the carried row it has just completed, with a unit axis added. -/
theorem stored_C (t : Fin cfg0.N) (h0 : ¬t.val % 25 = 0) (h1 : t.val % 25 = 24) :
    (outsAt0 m c t.val t.isLt).1 = k0_pay3 (F := Ideal) (k0_pay2 (F := Ideal) (iblk m c 0 t) (iblk m c 2 t) (iblk m c 3 t) (iblk m c 1 t) (outsAt0 m c (t.val - 1) (Nat.lt_of_le_of_lt (Nat.sub_le _ _) t.isLt)).2) :=
  (congrArg Prod.fst (outsAt0_C m c t h0 h1)).trans
    (out_C (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2)

/-- What tile `t` adds to column `k`, in terms of the blocks the point is handed. -/
def tileTerm (t : Fin cfg0.N) (k : Fin 256) : EReal := tileTermOf (iblk m c 0 t) (iblk m c 1 t) (iblk m c 2 t) (iblk m c 3 t) k

/-- One point's step at column `k`. -/
theorem step (t : Fin cfg0.N) (k : Fin 256) (acc : FVec Ideal S1x256 .f32) :
    k0_pay2 (F := Ideal) (iblk m c 0 t) (iblk m c 2 t) (iblk m c 3 t) (iblk m c 1 t) acc (ix2 0 k) = acc (ix2 0 k) + tileTerm m c t k :=
  pay2_apply (iblk m c 0 t) (iblk m c 1 t) (iblk m c 2 t) (iblk m c 3 t) acc k

/-- Tile `n`'s term, zero past the grid. -/
def tileAdd (n : ℕ) (k : Fin 256) : EReal := if h : n < cfg0.N then tileTerm m c ⟨n, h⟩ k else 0

/-- After the point `25 p + i` of run `p` the carried row holds the sum of the run's first `i + 1` tile terms. -/
theorem carried_eq (p : ℕ) (k : Fin 256) : ∀ (i : ℕ) (hi : i < 25) (h : 25 * p + i < cfg0.N),
    ((outsAt0 m c (25 * p + i) h).2 : S1x256.Idx → EReal) (ix2 0 k) = ∑ j ∈ Finset.range (i + 1), tileAdd m c (25 * p + j) k := by
  intro i
  induction i with
  | zero =>
    intro hi h
    have h0 : (⟨25 * p + 0, h⟩ : Fin cfg0.N).val % 25 = 0 := by show (25 * p + 0) % 25 = 0; omega
    have h1 : ¬(⟨25 * p + 0, h⟩ : Fin cfg0.N).val % 25 = 24 := by show ¬(25 * p + 0) % 25 = 24; omega
    rw [Finset.sum_range_one]
    refine (congrFun (carried_A m c ⟨25 * p + 0, h⟩ h0 h1) (ix2 0 k)).trans ?_
    refine (step m c ⟨25 * p + 0, h⟩ k _).trans ?_
    rw [pay1_apply, zero_add]
    unfold tileAdd
    rw [dif_pos h]
  | succ i ih =>
    intro hi h
    have hprev : 25 * p + i < cfg0.N := by omega
    have h0 : ¬(⟨25 * p + (i + 1), h⟩ : Fin cfg0.N).val % 25 = 0 := by show ¬(25 * p + (i + 1)) % 25 = 0; omega
    have hstep : ((outsAt0 m c (25 * p + (i + 1)) h).2 : S1x256.Idx → EReal) (ix2 0 k)
        = ((outsAt0 m c (25 * p + i) hprev).2 : S1x256.Idx → EReal) (ix2 0 k) + tileTerm m c ⟨25 * p + (i + 1), h⟩ k := by
      by_cases h1 : (⟨25 * p + (i + 1), h⟩ : Fin cfg0.N).val % 25 = 24
      · exact (congrFun (carried_C m c ⟨25 * p + (i + 1), h⟩ h0 h1) (ix2 0 k)).trans (step m c ⟨25 * p + (i + 1), h⟩ k _)
      · exact (congrFun (carried_B m c ⟨25 * p + (i + 1), h⟩ h0 h1) (ix2 0 k)).trans (step m c ⟨25 * p + (i + 1), h⟩ k _)
    rw [hstep, ih (by omega) hprev, Finset.sum_range_succ _ (i + 1)]
    unfold tileAdd
    rw [dif_pos h]

/-- The output block after the last point of run `p` holds, at column `k`, the sum of the run's 25 tile terms. -/
theorem stored_eq (p : ℕ) (k : Fin 256) (h : 25 * p + 24 < cfg0.N) :
    ((outsAt0 m c (25 * p + 24) h).1 : S1x1x256.Idx → EReal) (ix3 0 0 k) = ∑ j ∈ Finset.range 25, tileAdd m c (25 * p + j) k := by
  have h0 : ¬(⟨25 * p + 24, h⟩ : Fin cfg0.N).val % 25 = 0 := by show ¬(25 * p + 24) % 25 = 0; omega
  have h1 : (⟨25 * p + 24, h⟩ : Fin cfg0.N).val % 25 = 24 := by show (25 * p + 24) % 25 = 24; omega
  refine (congrFun (stored_C m c ⟨25 * p + 24, h⟩ h0 h1) (ix3 0 0 k)).trans ?_
  refine (pay3_apply _ k).trans ?_
  exact (congrFun (carried_C m c ⟨25 * p + 24, h⟩ h0 h1) (ix2 0 k)).symm.trans (carried_eq m c p k 24 (by omega) h)

end Cert.KernelIdeal.Accumulate

end
-- ==== Proof.FinalArray.lean ====
import proofs.«135449_j25305947308889_2_alg».proof.Defs
import proofs.«135449_j25305947308889_2_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic
import proofs.«135449_j25305947308889_2_alg».proof.Proof.Accumulate
set_option maxRecDepth 16384

noncomputable section

open Idealize.ShloMosaic Idealize.ShloMosaic.TcCoe Idealize.SL.Sem
open Idealize.ShloMosaic.Pipeline (Dat)
open Idealize.ShloMosaic.ValueIdx

/-! ## The array the region leaves

The output array has one [1, 256] row block per core's run, and the block of run `p` is written back once, after the run's last
point `25 p + 24`, holding the run's 25 tile terms summed. The two written blocks cover the array, so it ends holding exactly that. -/

namespace Cert.KernelIdeal.Final

open Cert.KernelIdeal Cert.KernelIdeal.Gen Cert.KernelIdeal.Accumulate

variable (m : (ℓ : Loc nD τ sig) → Buf (Elt Ideal) ℓ) (c : Dev nD)

/-- The 25 tile terms of run `p`, summed, at column `k`. -/
def runSum (p : ℕ) (k : Fin 256) : EReal := ∑ j ∈ Finset.range 25, tileAdd m c (25 * p + j) k

/-- What the output array ends holding: row block `p` is run `p`'s sum. -/
def G : S2x1x256.Idx → EReal := fun j => runSum m c (j 0).val (j 2)

theorem idx4 : ∀ t : Fin cfg0.N, win0_4.index t (0 : Fin 3) = t.val / 25 ∧ win0_4.index t (1 : Fin 3) = 0 ∧ win0_4.index t (2 : Fin 3) = 0 :=
  (by decide +kernel : ∀ t : Fin grid0.N, win0_4.index t (0 : Fin 3) = t.val / 25 ∧ win0_4.index t (1 : Fin 3) = 0 ∧ win0_4.index t (2 : Fin 3) = 0)

theorem xs4 : ∀ t : Fin cfg0.N, win0_4.xsize (grid0.coords t) (0 : Fin 3) = 1 ∧ win0_4.xsize (grid0.coords t) (1 : Fin 3) = 1 ∧ win0_4.xsize (grid0.coords t) (2 : Fin 3) = 256 :=
  (by decide +kernel : ∀ t : Fin grid0.N, win0_4.xsize (grid0.coords t) (0 : Fin 3) = 1 ∧ win0_4.xsize (grid0.coords t) (1 : Fin 3) = 1 ∧ win0_4.xsize (grid0.coords t) (2 : Fin 3) = 256)

/-- The output block after the last point of run `p`, whichever way the point is named. -/
theorem stored_at (k : Fin 256) : ∀ (n : ℕ) (hn : n < cfg0.N) (p : ℕ), n = 25 * p + 24 →
    ((outsAt0 m c n hn).1 : S1x1x256.Idx → EReal) (ix3 0 0 k) = runSum m c p k := by
  intro n hn p e
  subst e
  exact stored_eq m c p k hn

/-- A write-back happens after a run's last point and writes the run's sum: the block of `G` it lands on. -/
theorem flushed_eq (t : Fin cfg0.N) (hf : (cfg0.win 4).flush t = true) :
    (dats m 0 c).flushed 4 t = ((cfg0.win 4).blk t).view.read (Elt Ideal) (G m c) := by
  have h24 : t.val % 25 = 24 := (flush0_4 t).mp hf
  have hN : cfg0.N = 50 := N_0
  have ht := t.isLt
  show (cfg0.win 4).cut (grid0.coords t) ((dats m 0 c).after 4 t) = _
  rw [after0_4]
  show ((outsAt0 m c t.val t.isLt).1 : S1x1x256.Idx → EReal) = fun y : S1x1x256.Idx => G m c (((cfg0.win 4).blk t).view.emb y)
  funext y
  obtain ⟨a, b, k, rfl⟩ : ∃ (a : Fin 1) (b : Fin 1) (k : Fin 256), y = ix3 a b k := ⟨y 0, y 1, y 2, eq_ix3 y⟩
  obtain rfl : a = 0 := Subsingleton.elim _ _
  obtain rfl : b = 0 := Subsingleton.elim _ _
  rw [stored_at m c k t.val t.isLt (t.val / 25) (by omega)]
  have he : ((cfg0.win 4).blk t).view.emb (ix3 0 0 k) = (ix3 (⟨t.val / 25, by omega⟩ : Fin 2) 0 k : S2x1x256.Idx) :=
    funext fun d => Fin.ext (by
      match d with
      | ⟨0, _⟩ => show win0_4.index t 0 * 1 + 1 * 0 = t.val / 25; rw [(idx4 t).1]; omega
      | ⟨1, _⟩ => show win0_4.index t 1 * 1 + 1 * 0 = 0; rw [(idx4 t).2.1]
      | ⟨2, _⟩ => show win0_4.index t 2 * 256 + 1 * k.val = k.val; rw [(idx4 t).2.2]; omega)
  rw [he]
  rfl

/-- Every index of the output array lies in the block written after its run's last point. -/
theorem cover (i : S2x1x256.Idx) : ∃ t : Fin cfg0.N, (cfg0.win 4).flush t = true ∧ i ∈ ((cfg0.win 4).blk t).view.set := by
  have hN : cfg0.N = 50 := N_0
  have h0 : (i 0).val < 2 := (i 0).isLt
  have h1 : (i 1).val < 1 := (i 1).isLt
  have h2 : (i 2).val < 256 := (i 2).isLt
  have hlt : 25 * (i 0).val + 24 < cfg0.N := by omega
  refine ⟨⟨25 * (i 0).val + 24, hlt⟩, (flush0_4 _).mpr (by show (25 * (i 0).val + 24) % 25 = 24; omega), ?_⟩
  show i ∈ ((View.whole main_v50).slice (win0_4.rect ⟨25 * (i 0).val + 24, hlt⟩)).set
  rw [View.set_slice_whole, Rect.mem_set_unit]
  have hi := idx4 ⟨25 * (i 0).val + 24, hlt⟩
  have hx := xs4 ⟨25 * (i 0).val + 24, hlt⟩
  intro a
  match a with
  | ⟨0, _⟩ =>
    show win0_4.index ⟨25 * (i 0).val + 24, hlt⟩ 0 * 1 ≤ (i 0 : Nat) ∧ (i 0 : Nat) < win0_4.index ⟨25 * (i 0).val + 24, hlt⟩ 0 * 1 + win0_4.xsize (grid0.coords ⟨25 * (i 0).val + 24, hlt⟩) 0
    rw [hi.1, hx.1]; show (25 * (i 0).val + 24) / 25 * 1 ≤ (i 0 : Nat) ∧ (i 0 : Nat) < (25 * (i 0).val + 24) / 25 * 1 + 1; omega
  | ⟨1, _⟩ =>
    show win0_4.index ⟨25 * (i 0).val + 24, hlt⟩ 1 * 1 ≤ (i 1 : Nat) ∧ (i 1 : Nat) < win0_4.index ⟨25 * (i 0).val + 24, hlt⟩ 1 * 1 + win0_4.xsize (grid0.coords ⟨25 * (i 0).val + 24, hlt⟩) 1
    rw [hi.2.1, hx.2.1]; omega
  | ⟨2, _⟩ =>
    show win0_4.index ⟨25 * (i 0).val + 24, hlt⟩ 2 * 256 ≤ (i 2 : Nat) ∧ (i 2 : Nat) < win0_4.index ⟨25 * (i 0).val + 24, hlt⟩ 2 * 256 + win0_4.xsize (grid0.coords ⟨25 * (i 0).val + 24, hlt⟩) 2
    rw [hi.2.2, hx.2.2]; omega

/-- So the output array ends holding `G`. -/
theorem final : (dats m 0 c).arrAt 4 cfg0.N = G m c :=
  (dats m 0 c).arrAt_eq_of_cover 4 (G m c) (flushed_eq m c) cover

end Cert.KernelIdeal.Final

end
-- ==== Proof.Blocks.lean ====
import proofs.«135449_j25305947308889_2_alg».proof.Defs
import proofs.«135449_j25305947308889_2_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

set_option maxRecDepth 16384

noncomputable section

open Idealize.ShloMosaic Idealize.ShloMosaic.TcCoe Idealize.SL.Sem
open Idealize.ShloMosaic.Pipeline (Dat)
open Idealize.ShloMosaic.ValueIdx

/-! ## The blocks a grid point is handed, read from the arrays

At its `t`-th point the grid hands the body rows `2000 t … 2000 t + 1999` of the hidden and cell arrays, and the whole of the
weight matrix and of the bias row. A block's coordinate is the window's block index times the block's extent plus the coordinate
inside the block; the block indices are decided once over the 50 points. -/

namespace Cert.KernelIdeal.Blocks

open Cert.KernelIdeal Cert.KernelIdeal.Gen

variable (m : (ℓ : Loc nD τ sig) → Buf (Elt Ideal) ℓ) (c : Dev nD)

theorem idx0 : ∀ t : Fin cfg0.N, win0_0.index t (0 : Fin 2) = t.val ∧ win0_0.index t (1 : Fin 2) = 0 :=
  (by decide +kernel : ∀ t : Fin grid0.N, win0_0.index t (0 : Fin 2) = t.val ∧ win0_0.index t (1 : Fin 2) = 0)
theorem idx1 : ∀ t : Fin cfg0.N, win0_1.index t (0 : Fin 2) = t.val ∧ win0_1.index t (1 : Fin 2) = 0 :=
  (by decide +kernel : ∀ t : Fin grid0.N, win0_1.index t (0 : Fin 2) = t.val ∧ win0_1.index t (1 : Fin 2) = 0)
theorem idx2 : ∀ t : Fin cfg0.N, win0_2.index t (0 : Fin 2) = 0 ∧ win0_2.index t (1 : Fin 2) = 0 :=
  (by decide +kernel : ∀ t : Fin grid0.N, win0_2.index t (0 : Fin 2) = 0 ∧ win0_2.index t (1 : Fin 2) = 0)
theorem idx3 : ∀ t : Fin cfg0.N, win0_3.index t (0 : Fin 2) = 0 ∧ win0_3.index t (1 : Fin 2) = 0 :=
  (by decide +kernel : ∀ t : Fin grid0.N, win0_3.index t (0 : Fin 2) = 0 ∧ win0_3.index t (1 : Fin 2) = 0)

/-- Row `r` of the hidden block at point `t` is row `2000 t + r` of the reshaped hidden array. -/
theorem hidden_blk (t : Fin cfg0.N) (r : Fin 2000) (q : Fin 256) (h : 2000 * t.val + r.val < 100000) :
    (iblk m c 0 t : S2000x256.Idx → EReal) (ix2 r q)
      = (V m c main_v46 : S100000x256.Idx → EReal) (ix2 (⟨2000 * t.val + r.val, h⟩ : Fin 100000) q) := by
  unfold iblk
  show (V m c main_v46 : S100000x256.Idx → EReal) (((cfg0.win 0).blk t).view.emb (ix2 r q)) = _
  refine congrArg (V m c main_v46 : S100000x256.Idx → EReal) (funext fun a => Fin.ext ?_)
  match a with
  | ⟨0, _⟩ =>
    show win0_0.index t 0 * 2000 + 1 * r.val = 2000 * t.val + r.val
    rw [(idx0 t).1]; omega
  | ⟨1, _⟩ =>
    show win0_0.index t 1 * 256 + 1 * q.val = q.val
    rw [(idx0 t).2]; omega

/-- Row `r` of the cell block at point `t` is row `2000 t + r` of the reshaped cell array. -/
theorem cell_blk (t : Fin cfg0.N) (r : Fin 2000) (q : Fin 256) (h : 2000 * t.val + r.val < 100000) :
    (iblk m c 1 t : S2000x256.Idx → EReal) (ix2 r q)
      = (V m c main_v47 : S100000x256.Idx → EReal) (ix2 (⟨2000 * t.val + r.val, h⟩ : Fin 100000) q) := by
  unfold iblk
  show (V m c main_v47 : S100000x256.Idx → EReal) (((cfg0.win 1).blk t).view.emb (ix2 r q)) = _
  refine congrArg (V m c main_v47 : S100000x256.Idx → EReal) (funext fun a => Fin.ext ?_)
  match a with
  | ⟨0, _⟩ =>
    show win0_1.index t 0 * 2000 + 1 * r.val = 2000 * t.val + r.val
    rw [(idx1 t).1]; omega
  | ⟨1, _⟩ =>
    show win0_1.index t 1 * 256 + 1 * q.val = q.val
    rw [(idx1 t).2]; omega

/-- Every point is handed the whole weight matrix. -/
theorem weight_blk (t : Fin cfg0.N) (a b : Fin 256) :
    (iblk m c 2 t : S256x256.Idx → EReal) (ix2 a b) = (V m c main_v49 : S256x256.Idx → EReal) (ix2 a b) := by
  unfold iblk
  show (V m c main_v49 : S256x256.Idx → EReal) (((cfg0.win 2).blk t).view.emb (ix2 a b)) = _
  refine congrArg (V m c main_v49 : S256x256.Idx → EReal) (funext fun d => Fin.ext ?_)
  match d with
  | ⟨0, _⟩ =>
    show win0_2.index t 0 * 256 + 1 * a.val = a.val
    rw [(idx2 t).1]; omega
  | ⟨1, _⟩ =>
    show win0_2.index t 1 * 256 + 1 * b.val = b.val
    rw [(idx2 t).2]; omega

/-- Every point is handed the whole bias row. -/
theorem bias_blk (t : Fin cfg0.N) (k : Fin 256) :
    (iblk m c 3 t : S1x256.Idx → EReal) (ix2 0 k) = (V m c main_v45 : S1x256.Idx → EReal) (ix2 0 k) := by
  unfold iblk
  show (V m c main_v45 : S1x256.Idx → EReal) (((cfg0.win 3).blk t).view.emb (ix2 0 k)) = _
  refine congrArg (V m c main_v45 : S1x256.Idx → EReal) (funext fun d => Fin.ext ?_)
  match d with
  | ⟨0, _⟩ =>
    show win0_3.index t 0 * 1 + 1 * 0 = 0
    rw [(idx3 t).1]
  | ⟨1, _⟩ =>
    show win0_3.index t 1 * 256 + 1 * k.val = k.val
    rw [(idx3 t).2]; omega

end Cert.KernelIdeal.Blocks

end
-- ==== Proof.HostPrefix.lean ====
import proofs.«135449_j25305947308889_2_alg».proof.Defs
import proofs.«135449_j25305947308889_2_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic
import proofs.«135449_j25305947308889_2_alg».proof.Proof.Gen.ReferenceIdeal.Read
import Idealize.ShloMosaic.Lib.StableHlo.Run
set_option maxRecDepth 16384

noncomputable section

open Idealize.ShloMosaic Idealize.ShloMosaic.TcCoe Idealize.SL.Sem
open Idealize.ShloMosaic.Pipeline (Dat)
open Idealize.ShloMosaic.ValueIdx

/-! ## The arrays the region finds, and the vectors both programs share

Before the region the kernel's program reshapes the children's hidden and cell arrays to two axes, narrows and transposes the
forget weights, forms the bias row `bfh + fx`, and computes the input, update and output gates exactly as the reference does.
Here the four arrays the region's windows read are read at an index from the program's arguments, and the three gate vectors and
the input projection `fx` are identified with the reference's own stages of the same arguments. -/

namespace Cert.KernelIdeal.HostPrefix

open Cert.KernelIdeal Cert.KernelIdeal.Gen

variable (m : (ℓ : Loc nD τ sig) → Buf (Elt Ideal) ℓ) (c : Dev nD)

/-- The input projection `fx` is the reference's stage of the same arguments. -/
theorem proj_eq : V m c main_v43 = Cert.ReferenceIdeal.Read.val_main_v43 (F := Ideal) (m ((c : Thread nD τ).loc main_arg0)) (m ((c : Thread nD τ).loc main_arg6)) (m ((c : Thread nD τ).loc main_arg7)) := by
  show StableHlo.after hostOps0 (fun b => m (c, b)) (Proc.devRef .tc main_v43) = _
  after_results_simp
  rfl

/-- The input gate. -/
theorem inGate_eq : V m c main_v14 = Cert.ReferenceIdeal.Read.val_main_v14 (F := Ideal) (m ((c : Thread nD τ).loc main_arg0)) (m ((c : Thread nD τ).loc main_arg3)) (m ((c : Thread nD τ).loc main_arg4)) (m ((c : Thread nD τ).loc main_arg5)) (m ((c : Thread nD τ).loc main_arg12)) (m ((c : Thread nD τ).loc main_arg13)) := by
  show StableHlo.after hostOps0 (fun b => m (c, b)) (Proc.devRef .tc main_v14) = _
  after_results_simp
  rfl

/-- The update vector. -/
theorem update_eq : V m c main_v39 = Cert.ReferenceIdeal.Read.val_main_v39 (F := Ideal) (m ((c : Thread nD τ).loc main_arg0)) (m ((c : Thread nD τ).loc main_arg3)) (m ((c : Thread nD τ).loc main_arg8)) (m ((c : Thread nD τ).loc main_arg9)) (m ((c : Thread nD τ).loc main_arg16)) (m ((c : Thread nD τ).loc main_arg17)) := by
  show StableHlo.after hostOps0 (fun b => m (c, b)) (Proc.devRef .tc main_v39) = _
  after_results_simp
  rfl

/-- The output gate. -/
theorem outGate_eq : V m c main_v29 = Cert.ReferenceIdeal.Read.val_main_v29 (F := Ideal) (m ((c : Thread nD τ).loc main_arg0)) (m ((c : Thread nD τ).loc main_arg3)) (m ((c : Thread nD τ).loc main_arg10)) (m ((c : Thread nD τ).loc main_arg11)) (m ((c : Thread nD τ).loc main_arg18)) (m ((c : Thread nD τ).loc main_arg19)) := by
  show StableHlo.after hostOps0 (fun b => m (c, b)) (Proc.devRef .tc main_v29) = _
  after_results_simp
  rfl

/-- The reshaped hidden array at `(n, q)` is the children's hidden array at `(n, 0, q)`. -/
theorem hidden_apply (n : Fin 100000) (q : Fin 256) :
    (V m c main_v46 : S100000x256.Idx → EReal) (ix2 n q) = ((m ((c : Thread nD τ).loc main_arg2)) : S100000x1x256.Idx → EReal) (ix3 n 0 q) := by
  show StableHlo.after hostOps0 (fun b => m (c, b)) (Proc.devRef .tc main_v46) (ix2 n q) = _
  after_results
  exact shapeCast_apply _ shapeCasts_S100000x1x256_S100000x256 (ix2 n q) (ix3 n 0 q) (by
    rewrite [Shape.rowMajor_val_three, Shape.rowMajor_val_two]
    show (n.val * 1 + 0) * 256 + q.val = n.val * 256 + q.val
    omega)

/-- The reshaped cell array at `(n, q)` is the children's cell array at `(n, 0, q)`. -/
theorem cell_apply (n : Fin 100000) (q : Fin 256) :
    (V m c main_v47 : S100000x256.Idx → EReal) (ix2 n q) = ((m ((c : Thread nD τ).loc main_arg1)) : S100000x1x256.Idx → EReal) (ix3 n 0 q) := by
  show StableHlo.after hostOps0 (fun b => m (c, b)) (Proc.devRef .tc main_v47) (ix2 n q) = _
  after_results
  exact shapeCast_apply _ shapeCasts_S100000x1x256_S100000x256 (ix2 n q) (ix3 n 0 q) (by
    rewrite [Shape.rowMajor_val_three, Shape.rowMajor_val_two]
    show (n.val * 1 + 0) * 256 + q.val = n.val * 256 + q.val
    omega)

/-- The narrowed, transposed forget weights at `(a, b)` are the forget weights at `(b, a)`. -/
theorem weight_apply (a b : Fin 256) :
    (V m c main_v49 : S256x256.Idx → EReal) (ix2 a b) = ((m ((c : Thread nD τ).loc main_arg14)) : S256x256.Idx → EReal) (ix2 b a) := by
  show StableHlo.after hostOps0 (fun b => m (c, b)) (Proc.devRef .tc main_v49) (ix2 a b) = _
  after_results
  exact transpose_apply [1, 0] _ transposes_S256x256_S256x256_1_0 (ix2 a b) (ix2 b a) (fun d => match d with
    | ⟨0, _⟩ => rfl
    | ⟨1, _⟩ => rfl)

/-- A row `b` broadcast along a new leading unit axis, plus a row `f`, read at `(0, k)`, is `b k + f (0, k)`. -/
theorem bias_row (b : (⟨S256, .f32⟩ : BufTy).Contents (Elt Ideal)) (f : (⟨S1x256, .f32⟩ : BufTy).Contents (Elt Ideal)) (k : Fin 256) :
    (addf (F := Ideal) (φ := .f32) (broadcastInDim S1x256 ![1] bcast_S256_S1x256_1 b) f) (ix2 0 k) = b (ix1 k) + f (ix2 0 k) :=
  congrArg (· + f (ix2 0 k)) (broadcastInDim_apply _ bcast_S256_S1x256_1 b (ix2 0 k) (ix1 k) (fun a => match a with
    | ⟨0, _⟩ => by show k.val = if (256 : Nat) = 1 then 0 else k.val; rw [if_neg (by decide)]))

/-- The bias row at column `k` is the forget bias at `k` plus the input projection at `(0, k)`. -/
theorem bias_apply (k : Fin 256) :
    (V m c main_v45 : S1x256.Idx → EReal) (ix2 0 k)
      = (show EReal from ((m ((c : Thread nD τ).loc main_arg15)) : S256.Idx → EReal) (ix1 k)) + ((V m c main_v43 : S1x256.Idx → EReal) (ix2 0 k) : EReal) := by
  rw [proj_eq]
  show StableHlo.after hostOps0 (fun b => m (c, b)) (Proc.devRef .tc main_v45) (ix2 0 k) = _
  after_results_simp
  exact bias_row _ _ k

end Cert.KernelIdeal.HostPrefix

end
-- ==== Proof.LibSumBlocks.lean ====
/-
  A finite sum taken block by block.

  A sum of `m * n` terms in a commutative additive monoid is the sum, over `m` consecutive blocks, of
  each block's `n` terms: term `b` of block `a` is term `b + n * a` of the whole. Only commutativity and
  associativity of the addition are used, so the law holds on the extended reals with no finiteness
  assumption: a contraction of length 4096 accumulated as 16 partial contractions of length 256 is the
  one contraction.
-/
import Mathlib.Algebra.BigOperators.Fin
import Mathlib.Logic.Equiv.Fin.Basic

namespace Cert.SumBlocks

open Finset

/-- The whole sum is the sum over blocks of the blocks' sums; `finProdFinEquiv (a, b)` is position
    `b` of block `a`. -/
theorem sum_blocks {M : Type*} [AddCommMonoid M] (m n : ℕ) (f : Fin (m * n) → M) :
    ∑ k : Fin (m * n), f k = ∑ a : Fin m, ∑ b : Fin n, f (finProdFinEquiv (a, b)) :=
  (Equiv.sum_comp finProdFinEquiv f).symm.trans (Fintype.sum_prod_type _)

/-- Position `b` of block `a` is term `b + n * a`. -/
theorem block_pos (m n : ℕ) (a : Fin m) (b : Fin n) :
    (finProdFinEquiv (a, b) : Fin (m * n)).val = b.val + n * a.val := rfl

end Cert.SumBlocks
-- ==== Proof.GateSpec.lean ====
/-
  The forget-gate sum of a child-sum tree cell, as one function of the argument arrays.

  For a column `k`, child `n` contributes `σ(h_n · Wfh[k,:] + (bfh[k] + fx[k])) * c_n[k]`: the logistic of the child's hidden
  row contracted against row `k` of the forget weights plus the bias, times the child's cell entry. The cell's forget term is
  the sum of the 100000 children's contributions. Read tile by tile — 50 tiles of 2000 consecutive children, the tiles taken in two
  runs of 25 — it is the same sum: only commutativity and associativity of the addition are used, so nothing here asks the
  entries to be finite.
-/
import Idealize.ShloMosaic.PureOps.Ideal
import Idealize.ShloMosaic.Lib.ValueIdx
import proofs.«135449_j25305947308889_2_alg».proof.Proof.LibSumBlocks

noncomputable section

open scoped BigOperators

namespace Cert.ForgetGate

open Idealize.ShloMosaic Idealize.ShloMosaic.ValueIdx

/-- Child `n`'s contribution to column `k`: its forget gate times its cell entry. -/
def childTerm (H C : (⟨3, ![100000, 1, 256]⟩ : Shape).Idx → EReal) (W : (⟨2, ![256, 256]⟩ : Shape).Idx → EReal)
    (b : (⟨1, ![256]⟩ : Shape).Idx → EReal) (fx : (⟨2, ![1, 256]⟩ : Shape).Idx → EReal) (k : Fin 256) (n : Fin 100000) : EReal :=
  Ideal.logistic ((∑ m : Fin 256, H (ix3 n 0 m) * W (ix2 k m)) + (b (ix1 k) + fx (ix2 0 k))) * C (ix3 n 0 k)

/-- The forget term at column `k`: zero plus every child's contribution. -/
def gate (H C : (⟨3, ![100000, 1, 256]⟩ : Shape).Idx → EReal) (W : (⟨2, ![256, 256]⟩ : Shape).Idx → EReal)
    (b : (⟨1, ![256]⟩ : Shape).Idx → EReal) (fx : (⟨2, ![1, 256]⟩ : Shape).Idx → EReal) (k : Fin 256) : EReal :=
  0 + ∑ n : Fin 100000, childTerm H C W b fx k n

/-- The child in row `r` of tile `t`. -/
def tileRow (t : Fin 50) (r : Fin 2000) : Fin 100000 := ⟨2000 * t.val + r.val, by have := t.isLt; have := r.isLt; omega⟩

/-- Tile `t`'s partial sum of a per-child quantity (zero past the last tile). -/
def tileSum (g : Fin 100000 → EReal) (t : ℕ) : EReal :=
  if h : t < 50 then ∑ r : Fin 2000, g (tileRow ⟨t, h⟩ r) else 0

/-- What an accumulator started at zero holds after tiles `25 p` … `25 p + i`. -/
def partialSum (g : Fin 100000 → EReal) (p i : ℕ) : EReal := ∑ j ∈ Finset.range (i + 1), tileSum g (25 * p + j)

theorem partialSum_zero (g : Fin 100000 → EReal) (p : ℕ) : (0 : EReal) + tileSum g (25 * p) = partialSum g p 0 := by
  unfold partialSum; rw [Finset.sum_range_one, zero_add, Nat.add_zero]

theorem partialSum_succ (g : Fin 100000 → EReal) (p i : ℕ) :
    partialSum g p i + tileSum g (25 * p + (i + 1)) = partialSum g p (i + 1) := by
  unfold partialSum; rw [Finset.sum_range_succ _ (i + 1)]

/-- The sum over all children is the sum over the 50 tiles of the tiles' sums. -/
theorem sum_by_tiles (g : Fin 100000 → EReal) : ∑ n : Fin 100000, g n = ∑ t : Fin 50, ∑ r : Fin 2000, g (tileRow t r) := by
  show ∑ n : Fin (50 * 2000), g n = _
  rw [Cert.SumBlocks.sum_blocks 50 2000]
  refine Finset.sum_congr rfl fun t _ => Finset.sum_congr rfl fun r _ => congrArg g (Fin.ext ?_)
  show (finProdFinEquiv (t, r) : Fin (50 * 2000)).val = 2000 * t.val + r.val
  rw [Cert.SumBlocks.block_pos]; omega

/-- The sum over all children is the sum of the two runs' final accumulators. -/
theorem sum_by_runs (g : Fin 100000 → EReal) : ∑ n : Fin 100000, g n = ∑ p : Fin 2, partialSum g p.val 24 := by
  rw [sum_by_tiles]
  show ∑ t : Fin (2 * 25), ∑ r : Fin 2000, g (tileRow t r) = _
  rw [Cert.SumBlocks.sum_blocks 2 25]
  refine Finset.sum_congr rfl fun p _ => ?_
  unfold partialSum
  rw [Finset.sum_range]
  refine Finset.sum_congr rfl fun j _ => ?_
  have hp := p.isLt; have hj := j.isLt
  have ht : 25 * p.val + j.val < 50 := by omega
  unfold tileSum
  rw [dif_pos ht]
  refine Finset.sum_congr rfl fun r _ => congrArg g (Fin.ext ?_)
  show 2000 * (finProdFinEquiv (p, j) : Fin (2 * 25)).val + r.val = 2000 * (25 * p.val + j.val) + r.val
  rw [Cert.SumBlocks.block_pos]; omega

end Cert.ForgetGate

end
-- ==== Proof.Tiles.lean ====
import proofs.«135449_j25305947308889_2_alg».proof.Defs
import proofs.«135449_j25305947308889_2_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic
import proofs.«135449_j25305947308889_2_alg».proof.Proof.Accumulate
import proofs.«135449_j25305947308889_2_alg».proof.Proof.Blocks
import proofs.«135449_j25305947308889_2_alg».proof.Proof.HostPrefix
import proofs.«135449_j25305947308889_2_alg».proof.Proof.GateSpec
set_option maxRecDepth 16384

noncomputable section

open Idealize.ShloMosaic Idealize.ShloMosaic.TcCoe Idealize.SL.Sem
open Idealize.ShloMosaic.Pipeline (Dat)
open Idealize.ShloMosaic.ValueIdx

/-! ## The kernel's tile terms are the specification's

Row `r` of the blocks handed to the `t`-th point is child `2000 t + r`: its hidden row, its cell row, the whole transposed
weight matrix and the bias row `bfh + fx`. So what the point adds to column `k` is the specification's sum, over the tile's
children, of their contributions at the program's own arguments. -/

namespace Cert.KernelIdeal.Tiles

open Cert.KernelIdeal Cert.KernelIdeal.Gen Cert.ForgetGate

variable (m : (ℓ : Loc nD τ sig) → Buf (Elt Ideal) ℓ) (c : Dev nD)

/-- Child `n`'s contribution to column `k`, at the program's arguments and its own input projection. -/
def child (k : Fin 256) (n : Fin 100000) : EReal :=
  childTerm (m ((c : Thread nD τ).loc main_arg2)) (m ((c : Thread nD τ).loc main_arg1)) (m ((c : Thread nD τ).loc main_arg14)) (m ((c : Thread nD τ).loc main_arg15)) (V m c main_v43) k n

/-- The term the `t`-th point adds is the sum of its tile's children's contributions. -/
theorem tileTerm_eq (t : Fin cfg0.N) (h : t.val < 50) (k : Fin 256) :
    Accumulate.tileTerm m c t k = ∑ r : Fin 2000, child m c k (tileRow ⟨t.val, h⟩ r) := by
  unfold Accumulate.tileTerm BodyValue.tileTermOf
  refine Finset.sum_congr rfl fun r _ => ?_
  have hr := r.isLt
  have hb : 2000 * t.val + r.val < 100000 := by omega
  unfold child childTerm
  refine congrArg₂ (· * ·) (congrArg Ideal.logistic (congrArg₂ (· + ·) (Finset.sum_congr rfl fun q _ => ?_) ?_)) ?_
  · exact congrArg₂ (· * ·) ((Blocks.hidden_blk m c t r q hb).trans (HostPrefix.hidden_apply m c _ q))
      ((Blocks.weight_blk m c t q k).trans (HostPrefix.weight_apply m c q k))
  · exact (Blocks.bias_blk m c t k).trans (HostPrefix.bias_apply m c k)
  · exact (Blocks.cell_blk m c t r k hb).trans (HostPrefix.cell_apply m c _ k)

/-- Tile `n`'s term, by position in the grid, is the specification's tile sum. -/
theorem tileAdd_eq (k : Fin 256) (n : ℕ) : Accumulate.tileAdd m c n k = tileSum (child m c k) n := by
  have hN : cfg0.N = 50 := N_0
  unfold Accumulate.tileAdd tileSum
  by_cases h : n < 50
  · rw [dif_pos (show n < cfg0.N by omega), dif_pos h]
    exact tileTerm_eq m c ⟨n, by omega⟩ h k
  · rw [dif_neg (show ¬n < cfg0.N by omega), dif_neg h]

end Cert.KernelIdeal.Tiles

end
-- ==== Proof.KernelRun.lean ====
import proofs.«135449_j25305947308889_2_alg».proof.Defs
import proofs.«135449_j25305947308889_2_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic
import proofs.«135449_j25305947308889_2_alg».proof.Proof.FinalArray
import proofs.«135449_j25305947308889_2_alg».proof.Proof.Tiles
import proofs.«135449_j25305947308889_2_alg».proof.Proof.GateSpec
import Idealize.ShloMosaic.Lib.StableHlo.Run
set_option maxRecDepth 16384

noncomputable section

open Idealize.ShloMosaic Idealize.ShloMosaic.TcCoe Idealize.SL.Sem
open Idealize.ShloMosaic.Pipeline (Dat)
open Idealize.ShloMosaic.ValueIdx

/-! ## The kernel's program, run

After the region the program sums the output array's two row blocks from zero — the forget row —, adds it to the product of the
input gate and the update vector, and multiplies the output gate by the hyperbolic tangent of that. The forget row at column
`k` is zero plus the two runs' sums, which is zero plus the sum over all 100000 children: the specification's forget term. -/

namespace Cert.KernelIdeal.Run

open Cert.KernelIdeal Cert.KernelIdeal.Gen Cert.ForgetGate

variable (m : (ℓ : Loc nD τ sig) → Buf (Elt Ideal) ℓ) (ρ : Dev nD → PrngReg)

/-- The forget row: the output array's row blocks summed from zero. -/
def gateRow (c : Dev nD) : FVec Ideal S1x256 .f32 :=
  Host.reduceAdd (F := Ideal) (Final.G m c) (constant (F := Ideal) S_ .f32 0x00000000#32) reducesTo_S2x1x256_S1x256_d0 h_S_

/-- The new cell row. -/
def cellOut (c : Dev nD) : FVec Ideal S1x256 .f32 := addf (mulf (V m c main_v14) (V m c main_v39)) (gateRow m c)

/-- The new hidden row. -/
def hiddenOut (c : Dev nD) : FVec Ideal S1x256 .f32 := mulf (V m c main_v29) (Host.tanh (F := Ideal) (cellOut m c))

/-- Column `k` of the reduced array with block `p` put back is `(p, 0, k)`. -/
theorem lift_blk (h : S2x1x256.Reduces [0] S1x256) (k : Fin 256) (p : Fin (S2x1x256.size 0)) :
    h.lift (ix2 0 k) p = ix3 (⟨p.val, p.isLt⟩ : Fin 2) 0 k := by
  funext d; apply Fin.ext
  fin_cases d <;> rfl

/-- Run `p`'s sum is the specification's accumulator after the run's 25 tiles. -/
theorem runSum_eq (c : Dev nD) (p : ℕ) (k : Fin 256) : Final.runSum m c p k = partialSum (Tiles.child m c k) p 24 := by
  unfold Final.runSum partialSum
  exact Finset.sum_congr rfl fun j _ => Tiles.tileAdd_eq m c k _

/-- The forget row at an index is the specification's forget term at the index's column. -/
theorem gateRow_apply (c : Dev nD) (i : S1x256.Idx) :
    gateRow m c i = gate (m ((c : Thread nD τ).loc main_arg2)) (m ((c : Thread nD τ).loc main_arg1)) (m ((c : Thread nD τ).loc main_arg14)) (m ((c : Thread nD τ).loc main_arg15)) (V m c main_v43) (i 1) := by
  obtain ⟨a, k, rfl⟩ : ∃ (a : Fin 1) (k : Fin 256), i = ix2 a k := ⟨i 0, i 1, eq_ix2 i⟩
  obtain rfl : a = 0 := Subsingleton.elim _ _
  unfold gateRow gate
  simp only [Host.reduceAdd, Ideal.hostReduceAdd_def]
  rw [Ideal.hostReduceAdd_single reducesTo_S2x1x256_S1x256_d0 (by decide)]
  refine congrArg₂ (· + ·) Ideal.ofBits_zero_f32 ?_
  refine Eq.trans ?_ (sum_by_runs (Tiles.child m c k)).symm
  refine Finset.sum_congr rfl fun p _ => ?_
  rw [lift_blk]
  exact runSum_eq m c p.val k

/-- The first result buffer after the program's last lines: the new cell row. -/
theorem tail_cell (c : Dev nD) : Pipeline.afterTail₀ cfgs (dats m) 0 (V0 m) [hostOps1] c main_v53 = cellOut m c := by
  unfold Pipeline.afterTail₀
  show StableHlo.after hostOps1 _ (Proc.devRef .tc main_v53) = _
  after_results
  unfold cellOut gateRow
  refine congrArg₂ addf (congrArg₂ mulf ?_ ?_) (congrArg (fun x => Host.reduceAdd (F := Ideal) x (constant (F := Ideal) S_ .f32 0x00000000#32) reducesTo_S2x1x256_S1x256_d0 h_S_) ?_)
  · exact Pipeline.withArrays_of_ne _ c (V0 m c) _ main_v14 (by exact (by decide : ∀ w, Pipeline.arrRef spec0 w ≠ main_v14))
  · exact Pipeline.withArrays_of_ne _ c (V0 m c) _ main_v39 (by exact (by decide : ∀ w, Pipeline.arrRef spec0 w ≠ main_v39))
  · exact (Pipeline.withArrays_arr spec0 launch0.win.arr_inj c _ _ 4).trans (Final.final m c)

/-- The second result buffer: the new hidden row. -/
theorem tail_hidden (c : Dev nD) : Pipeline.afterTail₀ cfgs (dats m) 0 (V0 m) [hostOps1] c main_v55 = hiddenOut m c := by
  unfold Pipeline.afterTail₀
  show StableHlo.after hostOps1 _ (Proc.devRef .tc main_v55) = _
  after_results
  unfold hiddenOut cellOut gateRow
  refine congrArg₂ mulf ?_ (congrArg (Host.tanh (F := Ideal)) (congrArg₂ addf (congrArg₂ mulf ?_ ?_) (congrArg (fun x => Host.reduceAdd (F := Ideal) x (constant (F := Ideal) S_ .f32 0x00000000#32) reducesTo_S2x1x256_S1x256_d0 h_S_) ?_)))
  · exact Pipeline.withArrays_of_ne _ c (V0 m c) _ main_v29 (by exact (by decide : ∀ w, Pipeline.arrRef spec0 w ≠ main_v29))
  · exact Pipeline.withArrays_of_ne _ c (V0 m c) _ main_v14 (by exact (by decide : ∀ w, Pipeline.arrRef spec0 w ≠ main_v14))
  · exact Pipeline.withArrays_of_ne _ c (V0 m c) _ main_v39 (by exact (by decide : ∀ w, Pipeline.arrRef spec0 w ≠ main_v39))
  · exact (Pipeline.withArrays_arr spec0 launch0.win.arr_inj c _ _ 4).trans (Final.final m c)

/-- Every weakly fair execution of the kernel's program ends with the two result buffers at the new cell and hidden rows and
    the arguments unchanged. -/
theorem run : θ_run defs (onTc (τ := τ) (main (F := Ideal))) ⟨m, fun _ => 0, ρ⟩ (fun r => ∀ c : Dev nD,
      r.2.mem ((c.tc : Thread nD τ).loc main_v53) = cellOut m c
      ∧ r.2.mem ((c.tc : Thread nD τ).loc main_v55) = hiddenOut m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)) :=
  (θ_run defs _ _).mono (fun _ h c => ⟨
      ((h c).2 main_v53 (Pipeline.mem_restRefs_of main_v53 (by decide) (by decide))).trans (tail_cell m c),
      ((h c).2 main_v55 (Pipeline.mem_restRefs_of main_v55 (by decide) (by decide))).trans (tail_hidden m c),
      (((h c).2 main_arg0 (Pipeline.mem_restRefs_of main_arg0 (by decide) (by decide))).trans (W_main_arg0 m (dats m) c)),
      (((h c).2 main_arg1 (Pipeline.mem_restRefs_of main_arg1 (by decide) (by decide))).trans (W_main_arg1 m (dats m) c)),
      (((h c).2 main_arg2 (Pipeline.mem_restRefs_of main_arg2 (by decide) (by decide))).trans (W_main_arg2 m (dats m) c)),
      (((h c).2 main_arg3 (Pipeline.mem_restRefs_of main_arg3 (by decide) (by decide))).trans (W_main_arg3 m (dats m) c)),
      (((h c).2 main_arg4 (Pipeline.mem_restRefs_of main_arg4 (by decide) (by decide))).trans (W_main_arg4 m (dats m) c)),
      (((h c).2 main_arg5 (Pipeline.mem_restRefs_of main_arg5 (by decide) (by decide))).trans (W_main_arg5 m (dats m) c)),
      (((h c).2 main_arg6 (Pipeline.mem_restRefs_of main_arg6 (by decide) (by decide))).trans (W_main_arg6 m (dats m) c)),
      (((h c).2 main_arg7 (Pipeline.mem_restRefs_of main_arg7 (by decide) (by decide))).trans (W_main_arg7 m (dats m) c)),
      (((h c).2 main_arg8 (Pipeline.mem_restRefs_of main_arg8 (by decide) (by decide))).trans (W_main_arg8 m (dats m) c)),
      (((h c).2 main_arg9 (Pipeline.mem_restRefs_of main_arg9 (by decide) (by decide))).trans (W_main_arg9 m (dats m) c)),
      (((h c).2 main_arg10 (Pipeline.mem_restRefs_of main_arg10 (by decide) (by decide))).trans (W_main_arg10 m (dats m) c)),
      (((h c).2 main_arg11 (Pipeline.mem_restRefs_of main_arg11 (by decide) (by decide))).trans (W_main_arg11 m (dats m) c)),
      (((h c).2 main_arg12 (Pipeline.mem_restRefs_of main_arg12 (by decide) (by decide))).trans (W_main_arg12 m (dats m) c)),
      (((h c).2 main_arg13 (Pipeline.mem_restRefs_of main_arg13 (by decide) (by decide))).trans (W_main_arg13 m (dats m) c)),
      (((h c).2 main_arg14 (Pipeline.mem_restRefs_of main_arg14 (by decide) (by decide))).trans (W_main_arg14 m (dats m) c)),
      (((h c).2 main_arg15 (Pipeline.mem_restRefs_of main_arg15 (by decide) (by decide))).trans (W_main_arg15 m (dats m) c)),
      (((h c).2 main_arg16 (Pipeline.mem_restRefs_of main_arg16 (by decide) (by decide))).trans (W_main_arg16 m (dats m) c)),
      (((h c).2 main_arg17 (Pipeline.mem_restRefs_of main_arg17 (by decide) (by decide))).trans (W_main_arg17 m (dats m) c)),
      (((h c).2 main_arg18 (Pipeline.mem_restRefs_of main_arg18 (by decide) (by decide))).trans (W_main_arg18 m (dats m) c)),
      (((h c).2 main_arg19 (Pipeline.mem_restRefs_of main_arg19 (by decide) (by decide))).trans (W_main_arg19 m (dats m) c))⟩) (run_main m ρ)

end Cert.KernelIdeal.Run

end
-- ==== Proof.RefGate.lean ====
/-
  The reference's forget term read at an index.

  The reference forms, for every child `n` and column `k`, `(h_n · Wfh[k,:] + bfh[k]) + fx[k]`, takes `1 / (1 + e^(-s))` of it,
  multiplies by the child's cell entry, and sums over the children from zero. Over the extended reals the quotient
  `1 / (1 + e^(-s))` is the logistic function of `s` by definition, and regrouping the bias as `bfh[k] + fx[k]` is associativity of
  the addition, so the reference's forget row at column `k` is the specification's `gate`.
-/
import proofs.«135449_j25305947308889_2_alg».proof.Proof.Gen.ReferenceIdeal.Read
import proofs.«135449_j25305947308889_2_alg».proof.Proof.GateSpec
import Idealize.ShloMosaic.Lib.IdealHost

noncomputable section

open scoped BigOperators

namespace Cert.ReferenceIdeal.RefValue

open Cert.ReferenceIdeal Cert.ReferenceIdeal.Gen Cert.ReferenceIdeal.Read Idealize.ShloMosaic Idealize.ShloMosaic.ValueIdx

/-- Row `n`, column `k` of the reshaped array is entry `(n, 0, k)` of the array before the reshape: the flat position
    `n * 256 + k` with `k < 256` has quotient `n` and remainder `k` by 256. -/
theorem idx_reshape (n : Fin 100000) (k : Fin 256) : idx_main_v58 (ix2 n k) = ix3 n 0 k :=
  funext fun a => Fin.ext (by
    have hk := k.isLt
    match a with
    | ⟨0, _⟩ => show (n.val * 256 + k.val) / 256 = n.val; omega
    | ⟨1, _⟩ => rfl
    | ⟨2, _⟩ => show (n.val * 256 + k.val) % 256 = k.val; omega)

/-- The contraction reads child `n`'s hidden row at `m`. -/
theorem idx_hidden (n : Fin 100000) (k m : Fin 256) : lidx_main_v45 (ix3 n 0 k) m = ix3 n 0 m :=
  funext fun a => Fin.ext (by match a with | ⟨0, _⟩ => rfl | ⟨1, _⟩ => rfl | ⟨2, _⟩ => rfl)

/-- The contraction reads row `k` of the weights at `m`. -/
theorem idx_weight (n : Fin 100000) (k m : Fin 256) : ridx_main_v45 (ix3 n 0 k) m = ix2 k m :=
  funext fun a => Fin.ext (by match a with | ⟨0, _⟩ => rfl | ⟨1, _⟩ => rfl)

/-- The two broadcasts of the bias read it at column `k`. -/
theorem idx_bias (n : Fin 100000) (k : Fin 256) : idx_main_v46 (idx_main_v47 (ix3 n 0 k)) = ix1 k :=
  funext fun a => Fin.ext (by match a with | ⟨0, _⟩ => rfl)

/-- The two broadcasts of the input projection read it at row 0, column `k`. -/
theorem idx_proj (n : Fin 100000) (k : Fin 256) : idx_main_v44 (idx_main_v49 (ix3 n 0 k)) = ix2 0 k :=
  funext fun a => Fin.ext (by match a with | ⟨0, _⟩ => rfl | ⟨1, _⟩ => rfl)

/-- Child `n`'s entry of the reshaped product at column `k` is the specification's contribution of child `n`:
    `1 / (1 + e^(-s))` is the logistic of `s` by definition, and `(d + b) + f = d + (b + f)`. -/
theorem child_apply (x0 : (⟨S1x256, .f32⟩ : BufTy).Contents (Elt Ideal)) (x1 x2 : (⟨S100000x1x256, .f32⟩ : BufTy).Contents (Elt Ideal))
    (x6 : (⟨S256x256, .f32⟩ : BufTy).Contents (Elt Ideal)) (x7 : (⟨S256, .f32⟩ : BufTy).Contents (Elt Ideal))
    (x14 : (⟨S256x256, .f32⟩ : BufTy).Contents (Elt Ideal)) (x15 : (⟨S256, .f32⟩ : BufTy).Contents (Elt Ideal))
    (k : Fin 256) (n : Fin 100000) :
    val_main_v58 (F := Ideal) x0 x1 x2 x6 x7 x14 x15 (ix2 n k)
      = Cert.ForgetGate.childTerm x2 x1 x14 x15 (val_main_v43 (F := Ideal) x0 x6 x7) k n := by
  rw [val_main_v58_apply, idx_reshape, val_main_v57_apply, val_main_v56_apply, val_main_v55_apply, val_main_cst_4_apply,
    val_main_v54_apply, val_main_v53_apply, val_main_cst_3_apply, val_main_v52_apply, val_main_v51_apply, val_main_v50_apply,
    val_main_v48_apply, val_main_v49_apply, val_main_v44_apply, val_main_v47_apply, val_main_v46_apply, val_main_v45_apply,
    idx_bias, idx_proj]
  simp only [idx_hidden, idx_weight, Ideal.mulf_def, Ideal.hostDivf_def, Ideal.addf_def, Ideal.hostUnary_exp_def,
    Ideal.hostNegf_def, Ideal.negf_def, Ideal.ofBits_def, Ideal.ofBits_one_f32]
  unfold Cert.ForgetGate.childTerm Ideal.logistic
  rw [add_assoc]

/-- The reference's forget row (the broadcast of its sum over the children) at an index is the specification's forget
    term at the index's column, with `fx` the reference's own input projection. -/
theorem gate_apply (x0 : (⟨S1x256, .f32⟩ : BufTy).Contents (Elt Ideal)) (x1 x2 : (⟨S100000x1x256, .f32⟩ : BufTy).Contents (Elt Ideal))
    (x6 : (⟨S256x256, .f32⟩ : BufTy).Contents (Elt Ideal)) (x7 : (⟨S256, .f32⟩ : BufTy).Contents (Elt Ideal))
    (x14 : (⟨S256x256, .f32⟩ : BufTy).Contents (Elt Ideal)) (x15 : (⟨S256, .f32⟩ : BufTy).Contents (Elt Ideal)) (i : S1x256.Idx) :
    val_main_v61 (F := Ideal) x0 x1 x2 x6 x7 x14 x15 i
      = Cert.ForgetGate.gate x2 x1 x14 x15 (val_main_v43 (F := Ideal) x0 x6 x7) (i 1) := by
  unfold Cert.ForgetGate.gate
  rw [val_main_v61_apply, val_main_v60_apply, val_main_cst_5_apply, Ideal.ofBits_def, Ideal.ofBits_zero_f32]
  refine congrArg (0 + ·) (Finset.sum_congr rfl fun n _ => ?_)
  have e : idx_main_v60 (idx_main_v61 i) n = ix2 n (i 1) :=
    funext fun a => Fin.ext (by match a with | ⟨0, _⟩ => rfl | ⟨1, _⟩ => rfl)
  rw [e]
  exact child_apply x0 x1 x2 x6 x7 x14 x15 (i 1) n

end Cert.ReferenceIdeal.RefValue

end
-- ==== Proof.Bridge.lean ====
/-
  The two programs' results are one function of the arguments.

  Both programs compute the new cell row as `i * u + f` and the new hidden row as `o * tanh (i * u + f)`, with the same input gate
  `i`, update vector `u` and output gate `o` of the same arguments. Their forget rows `f` are each the specification's forget term,
  column by column — the kernel's by accumulating tiles in two runs, the reference's by one sum over the children — with the same
  input projection. So the reference's result stages, at the kernel's arguments, are the kernel's results.
-/
import proofs.«135449_j25305947308889_2_alg».proof.Proof.KernelRun
import proofs.«135449_j25305947308889_2_alg».proof.Proof.RefGate
import proofs.«135449_j25305947308889_2_alg».proof.Proof.HostPrefix

noncomputable section

open Idealize.ShloMosaic Idealize.ShloMosaic.TcCoe Idealize.SL.Sem

namespace Cert.Bridge

variable (m : (ℓ : Loc Cert.KernelIdeal.nD Cert.KernelIdeal.τ Cert.KernelIdeal.sig) → Buf (Elt Ideal) ℓ) (c : Dev Cert.KernelIdeal.nD)

/-- The reference's new cell row, at the kernel's arguments, is the kernel's. -/
theorem cell_eq : Cert.ReferenceIdeal.Read.val_main_v62 (F := Ideal) (m ((c : Thread Cert.KernelIdeal.nD Cert.KernelIdeal.τ).loc Cert.KernelIdeal.main_arg0)) (m ((c : Thread Cert.KernelIdeal.nD Cert.KernelIdeal.τ).loc Cert.KernelIdeal.main_arg1)) (m ((c : Thread Cert.KernelIdeal.nD Cert.KernelIdeal.τ).loc Cert.KernelIdeal.main_arg2)) (m ((c : Thread Cert.KernelIdeal.nD Cert.KernelIdeal.τ).loc Cert.KernelIdeal.main_arg3)) (m ((c : Thread Cert.KernelIdeal.nD Cert.KernelIdeal.τ).loc Cert.KernelIdeal.main_arg4)) (m ((c : Thread Cert.KernelIdeal.nD Cert.KernelIdeal.τ).loc Cert.KernelIdeal.main_arg5)) (m ((c : Thread Cert.KernelIdeal.nD Cert.KernelIdeal.τ).loc Cert.KernelIdeal.main_arg6)) (m ((c : Thread Cert.KernelIdeal.nD Cert.KernelIdeal.τ).loc Cert.KernelIdeal.main_arg7)) (m ((c : Thread Cert.KernelIdeal.nD Cert.KernelIdeal.τ).loc Cert.KernelIdeal.main_arg8)) (m ((c : Thread Cert.KernelIdeal.nD Cert.KernelIdeal.τ).loc Cert.KernelIdeal.main_arg9)) (m ((c : Thread Cert.KernelIdeal.nD Cert.KernelIdeal.τ).loc Cert.KernelIdeal.main_arg12)) (m ((c : Thread Cert.KernelIdeal.nD Cert.KernelIdeal.τ).loc Cert.KernelIdeal.main_arg13)) (m ((c : Thread Cert.KernelIdeal.nD Cert.KernelIdeal.τ).loc Cert.KernelIdeal.main_arg14)) (m ((c : Thread Cert.KernelIdeal.nD Cert.KernelIdeal.τ).loc Cert.KernelIdeal.main_arg15)) (m ((c : Thread Cert.KernelIdeal.nD Cert.KernelIdeal.τ).loc Cert.KernelIdeal.main_arg16)) (m ((c : Thread Cert.KernelIdeal.nD Cert.KernelIdeal.τ).loc Cert.KernelIdeal.main_arg17)) = Cert.KernelIdeal.Run.cellOut m c := by
  unfold Cert.ReferenceIdeal.Read.val_main_v62 Cert.ReferenceIdeal.Read.val_main_v59 Cert.KernelIdeal.Run.cellOut
  refine congrArg₂ addf (congrArg₂ mulf (Cert.KernelIdeal.HostPrefix.inGate_eq m c).symm (Cert.KernelIdeal.HostPrefix.update_eq m c).symm)
    (funext fun i => ?_)
  rw [Cert.ReferenceIdeal.RefValue.gate_apply, Cert.KernelIdeal.Run.gateRow_apply, Cert.KernelIdeal.HostPrefix.proj_eq]

/-- The reference's new hidden row, at the kernel's arguments, is the kernel's. -/
theorem hidden_eq : Cert.ReferenceIdeal.Read.val_main_v64 (F := Ideal) (m ((c : Thread Cert.KernelIdeal.nD Cert.KernelIdeal.τ).loc Cert.KernelIdeal.main_arg0)) (m ((c : Thread Cert.KernelIdeal.nD Cert.KernelIdeal.τ).loc Cert.KernelIdeal.main_arg1)) (m ((c : Thread Cert.KernelIdeal.nD Cert.KernelIdeal.τ).loc Cert.KernelIdeal.main_arg2)) (m ((c : Thread Cert.KernelIdeal.nD Cert.KernelIdeal.τ).loc Cert.KernelIdeal.main_arg3)) (m ((c : Thread Cert.KernelIdeal.nD Cert.KernelIdeal.τ).loc Cert.KernelIdeal.main_arg4)) (m ((c : Thread Cert.KernelIdeal.nD Cert.KernelIdeal.τ).loc Cert.KernelIdeal.main_arg5)) (m ((c : Thread Cert.KernelIdeal.nD Cert.KernelIdeal.τ).loc Cert.KernelIdeal.main_arg6)) (m ((c : Thread Cert.KernelIdeal.nD Cert.KernelIdeal.τ).loc Cert.KernelIdeal.main_arg7)) (m ((c : Thread Cert.KernelIdeal.nD Cert.KernelIdeal.τ).loc Cert.KernelIdeal.main_arg8)) (m ((c : Thread Cert.KernelIdeal.nD Cert.KernelIdeal.τ).loc Cert.KernelIdeal.main_arg9)) (m ((c : Thread Cert.KernelIdeal.nD Cert.KernelIdeal.τ).loc Cert.KernelIdeal.main_arg10)) (m ((c : Thread Cert.KernelIdeal.nD Cert.KernelIdeal.τ).loc Cert.KernelIdeal.main_arg11)) (m ((c : Thread Cert.KernelIdeal.nD Cert.KernelIdeal.τ).loc Cert.KernelIdeal.main_arg12)) (m ((c : Thread Cert.KernelIdeal.nD Cert.KernelIdeal.τ).loc Cert.KernelIdeal.main_arg13)) (m ((c : Thread Cert.KernelIdeal.nD Cert.KernelIdeal.τ).loc Cert.KernelIdeal.main_arg14)) (m ((c : Thread Cert.KernelIdeal.nD Cert.KernelIdeal.τ).loc Cert.KernelIdeal.main_arg15)) (m ((c : Thread Cert.KernelIdeal.nD Cert.KernelIdeal.τ).loc Cert.KernelIdeal.main_arg16)) (m ((c : Thread Cert.KernelIdeal.nD Cert.KernelIdeal.τ).loc Cert.KernelIdeal.main_arg17)) (m ((c : Thread Cert.KernelIdeal.nD Cert.KernelIdeal.τ).loc Cert.KernelIdeal.main_arg18)) (m ((c : Thread Cert.KernelIdeal.nD Cert.KernelIdeal.τ).loc Cert.KernelIdeal.main_arg19)) = Cert.KernelIdeal.Run.hiddenOut m c := by
  unfold Cert.ReferenceIdeal.Read.val_main_v64 Cert.ReferenceIdeal.Read.val_main_v63 Cert.KernelIdeal.Run.hiddenOut
  exact congrArg₂ mulf (Cert.KernelIdeal.HostPrefix.outGate_eq m c).symm (congrArg (Host.tanh (F := Ideal)) (cell_eq m c))

end Cert.Bridge

end
-- ==== Proof.lean ====
/-
  A child-sum tree cell over 100000 children: the kernel against its reference, over the extended reals.

  Both programs form the input gate `i`, the update vector `u`, the output gate `o` and the input projection `fx` from the same
  arguments by the same operations, and return the new cell row `c = i * u + f` and the new hidden row `h = o * tanh c`, where the
  forget row `f` is, at column `k`, the sum over the children `n` of `σ(h_n · Wfh[k,:] + bfh[k] + fx[k]) * c_n[k]`.
  The reference computes `f` as one sum over the 100000 children, with the logistic function spelt `1 / (1 + e^(-s))` and the bias
  grouped `(· + bfh) + fx`. The kernel streams the children through the grid in 50 tiles of 2000, two runs of 25 tiles: each point adds
  its tile's column sums to a row carried between points, zeroed at a run's first point and stored as the run's block at its last;
  the program then adds the two blocks from zero. Over the extended reals a change of float format is the identity, the matrix
  product into a zero accumulator is the plain sum of products, `1 / (1 + e^(-s))` is the logistic function by definition, and the
  two groupings of the bias and of the sum differ only by associativity and commutativity of the addition — which hold with
  infinite entries too, so the precondition is never opened.

  The frames of the two kernel programs and the reference's run are the generated ones; the idealization rewrote no operation, so
  that claim is trivial; the equivalence is assembled below from the kernel's run (Proof/KernelRun.lean), the
  reference's generated run, and the identification of the two results (Proof/Bridge.lean).
-/
import proofs.«135449_j25305947308889_2_alg».proof.Defs
import proofs.«135449_j25305947308889_2_alg».proof.Proof.Gen.Kernel
import proofs.«135449_j25305947308889_2_alg».proof.Proof.Gen.Kernel.Frame
import proofs.«135449_j25305947308889_2_alg».proof.Proof.Gen.KernelIdeal
import proofs.«135449_j25305947308889_2_alg».proof.Proof.Gen.KernelIdeal.Frame
import proofs.«135449_j25305947308889_2_alg».proof.Proof.Gen.ReferenceIdeal
import proofs.«135449_j25305947308889_2_alg».proof.Proof.Gen.ReferenceIdeal.Run
import proofs.«135449_j25305947308889_2_alg».proof.Proof.Gen.ReferenceIdeal.Read
import proofs.«135449_j25305947308889_2_alg».proof.Proof.Gen.Pre_finite_inputs
import proofs.«135449_j25305947308889_2_alg».proof.Proof.KernelRun
import proofs.«135449_j25305947308889_2_alg».proof.Proof.Bridge
import Idealize.ShloMosaic.Adequacy
import Idealize.ShloMosaic.Init

noncomputable section

namespace Cert.Proof

open Idealize.ShloMosaic Idealize.ShloMosaic.TcCoe Idealize.SL.Sem

namespace Claims

theorem frame_k : Cert.frame_Kernel := fun m ρ _ => Cert.Kernel.Gen.frame m ρ

theorem frame_ki : Cert.frame_KernelIdeal := fun m ρ _ => Cert.KernelIdeal.Gen.frame m ρ

/-- The reference's frame is its run with the two results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- The idealization rewrote no operation. -/
theorem preserves : Cert.preserves_Kernel_KernelIdeal := trivial

/-- From memories agreeing on the arguments both programs end with the new cell row and the new hidden row of those
    arguments: the kernel's run names them, and the reference's stages at the same arguments are those rows. -/
theorem algebraic : Cert.algebraic_KernelIdeal_ReferenceIdeal := by
  intro m ρ m' ρ' _ hagree
  refine ⟨fun c => Cert.KernelIdeal.Run.cellOut m c, fun c => Cert.KernelIdeal.Run.hiddenOut m c, Cert.KernelIdeal.Run.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · obtain ⟨e0, e1, e2, e3, e4, e5, e6, e7, e8, e9, e10, e11, e12, e13, e14, e15, e16, e17, e18, e19⟩ := hagree c
    refine (Cert.ReferenceIdeal.Read.val_main_v62_eq _ _ _ _ _ _ _ _ _ _ _ _ _ _ _ _).trans ?_
    rw [e0, e1, e2, e3, e4, e5, e6, e7, e8, e9, e12, e13, e14, e15, e16, e17]
    exact Cert.Bridge.cell_eq m c
  · obtain ⟨e0, e1, e2, e3, e4, e5, e6, e7, e8, e9, e10, e11, e12, e13, e14, e15, e16, e17, e18, e19⟩ := hagree c
    refine (Cert.ReferenceIdeal.Read.val_main_v64_eq _ _ _ _ _ _ _ _ _ _ _ _ _ _ _ _ _ _ _ _).trans ?_
    rw [e0, e1, e2, e3, e4, e5, e6, e7, e8, e9, e10, e11, e12, e13, e14, e15, e16, e17, e18, e19]
    exact Cert.Bridge.hidden_eq m c

end Claims

theorem claim : Cert.Claim :=
  ⟨Cert.Kernel.Gen.facts, Cert.KernelIdeal.Gen.facts, Cert.ReferenceIdeal.Gen.facts, Cert.Pre_finite_inputs.Gen.facts,
    Claims.frame_k, Claims.frame_ki, Claims.frame_ri, Claims.preserves, Claims.algebraic⟩

end Cert.Proof

end
